-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S500000x32 : Shape := ⟨2, ![500000, 32]⟩
abbrev S192x128 : Shape := ⟨2, ![192, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x32 : S_.BroadcastsInDim S500000x32 (![] : Fin 0 → Fin S500000x32.rank)
  reducesTo_S500000x32_S_d0_1 : S500000x32.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S100000x128 .f32) (main_arg6 : FVec F S192x128 .f32) (main_arg7 : FVec F S128 .f32) (main_arg8 : FVec F S128x128 .f32) (main_arg9 : FVec F S128 .f32) (main_arg10 : FVec F S128 .f32) (main_arg11 : FVec F S128 .f32) (main_v13 : IVec S_ 1) (main_v16 : IVec S500000x32 1) : IVec S_ 1 :=
  let main_c_5 : IVec S_ 1 := constantI S_ 1 1#1
  let main_v17 : IVec S_ 1 := (fun x v => Host.reduce IntOp.andi x v reducesTo_S500000x32_S_d0_1 h_S_) main_v16 main_c_5
  let main_v18 : IVec S_ 1 := andi main_v13 main_v17
  let main_v19 : FVec F S100000x128 .f32 := Host.absf main_arg5
  let main_cst_6 : FVec F S_ .f32 := constant S_ .f32 0x7F800000#32
  let main_v20 : FVec F S100000x128 .f32 := broadcastInDim S100000x128 ![] bcast_S_S100000x128 main_cst_6
  let main_v21 : IVec S100000x128 1 := cmpf .olt main_v19 main_v20
  let main_c_7 : IVec S_ 1 := constantI S_ 1 1#1
  let main_v22 : IVec S_ 1 := (fun x v => Host.reduce IntOp.andi x v reducesTo_S100000x128_S_d0_1 h_S_) main_v21 main_c_7
  let main_v23 : IVec S_ 1 := andi main_v18 main_v22
  let main_v24 : FVec F S192x128 .f32 := Host.absf main_arg6
  let main_cst_8 : FVec F S_ .f32 := constant S_ .f32 0x7F800000#32
  let main_v25 : FVec F S192x128 .f32 := broadcastInDim S192x128 ![] bcast_S_S192x128 main_cst_8
  let main_v26 : IVec S192x128 1 := cmpf .olt main_v24 main_v25
  let main_c_9 : IVec S_ 1 := constantI S_ 1 1#1
  let main_v27 : IVec S_ 1 := (fun x v => Host.reduce IntOp.andi x v reducesTo_S192x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : FVec F S100000x128 .f32) (main_arg2 : IVec S2x500000 32) (main_arg3 : FVec F S500000x32 .f32) (main_arg4 : FVec F S500000x32 .f32) (main_arg5 : FVec F S100000x128 .f32) (main_arg6 : FVec F S192x128 .f32) (main_arg7 : FVec F S128 .f32) (main_arg8 : FVec F S128x128 .f32) (main_arg9 : FVec F S128 .f32) (main_arg10 : FVec F S128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S500000x32 .f32 := Host.absf main_arg3
  let main_cst_2 : FVec F S_ .f32 := constant S_ .f32 0x7F800000#32
  let main_v10 : FVec F S500000x32 .f32 := broadcastInDim S500000x32 ![] bcast_S_S500000x32 main_cst_2
  let main_v11 : IVec S500000x32 1 := cmpf .olt main_v9 main_v10
  let main_c_3 : IVec S_ 1 := constantI S_ 1 1#1
  let main_v12 : IVec S_ 1 := (fun x v => Host.reduce IntOp.andi x v reducesTo_S500000x32_S_d0_1 h_S_) main_v11 main_c_3
  let main_v13 : IVec S_ 1 := andi main_v8 main_v12
  let main_v14 : FVec F S500000x32 .f32 := Host.absf main_arg4
  let main_cst_4 : FVec F S_ .f32 := constant S_ .f32 0x7F800000#32
  let main_v15 : FVec F S500000x32 .f32 := broadcastInDim S500000x32 ![] bcast_S_S500000x32 main_cst_4
  let main_v16 : IVec S500000x32 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x500000 : Shape := ⟨2, ![2, 500000]⟩
abbrev S500000x32 : Shape := ⟨2, ![500000, 32]⟩
abbrev S192x128 : Shape := ⟨2, ![192, 128]⟩
abbrev S128 : Shape := ⟨1, ![128]⟩
abbrev S128x128 : Shape := ⟨2, ![128, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S32x128 : Shape := ⟨2, ![32, 128]⟩
abbrev S1x128 : Shape := ⟨2, ![1, 128]⟩
abbrev S5000x128 : Shape := ⟨2, ![5000, 128]⟩
abbrev S5000x32 : Shape := ⟨2, ![5000, 32]⟩
abbrev S5000 : Shape := ⟨1, ![5000]⟩
abbrev S5000x1 : Shape := ⟨2, ![5000, 1]⟩

abbrev nBuf : Space → Nat
  | .hbm => 38
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x500000, .i32⟩
  | .hbm, ⟨3, _⟩ => ⟨S500000x32, .f32⟩
  | .hbm, ⟨4, _⟩ => ⟨S500000x32, .f32⟩
  | .hbm, ⟨5, _⟩ => ⟨S100000x128, .f32⟩
  | .hbm, ⟨6, _⟩ => ⟨S192x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x500000, .i32⟩
  | .hbm, ⟨13, _⟩ => ⟨S500000, .i32⟩
  | .hbm, ⟨14, _⟩ => ⟨S1x500000, .i32⟩
  | .hbm, ⟨15, _⟩ => ⟨S500000, .i32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S500000x128, .f32⟩
  | .hbm, ⟨25, _⟩ => ⟨S128x128, .f32⟩
  | .hbm, ⟨26, _⟩ => ⟨S32x128, .f32⟩
  | .hbm, ⟨27, _⟩ => ⟨S32x128, .f32⟩
  | .hbm, ⟨28, _⟩ => ⟨S1x128, .f32⟩
  | .hbm, ⟨29, _⟩ => ⟨S500000x128, .f32⟩
  | .hbm, ⟨30, _⟩ => ⟨S_, .f32⟩
  | .hbm, ⟨31, _⟩ => ⟨S100000x128, .f32⟩
  | .hbm, ⟨32, _⟩ => ⟨S500000x1, .i32⟩
  | .hbm, ⟨33, _⟩ => ⟨S100000x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S128x128, .f32⟩
  | .local _ .vmem, ⟨7, _⟩ => ⟨S32x128, .f32⟩
  | .local _ .vmem, ⟨8, _⟩ => ⟨S32x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  slices_S192x128_S128x128_0_0 : S192x128.Slices ![0, 0] S128x128
  slices_S192x128_S32x128_128_0 : S192x128.Slices ![128, 0] S32x128
  slices_S192x128_S32x128_160_0 : S192x128.Slices ![160, 0] S32x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S5000x32_S5000x32_0_0 : ∀ a, (![0, 0] : Fin 2 → Nat) a + S5000x32.size a ≤ S5000x32.size a
  h_S5000x32 : 0 < S5000x32.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000x128 : S_.BroadcastsInDim S100000x128 (![] : Fin 0 → Fin S100000x128.rank)
  reduces_S5000x128_S5000 : S5000x128.Reduces [1] S5000
  shapeCasts_S5000_S5000x1 : S5000.ShapeCasts S5000x1
  broadcasts_S5000x1_S5000x128 : S5000x1.Broadcasts S5000x128
  gather_S100000x128_S500000x1_S500000x128_1_0_n_n_0_1_1128_wf : GatherDims.WF S100000x128 S500000x1 S500000x128 [1] [0] [] [0] [] 1 ![1, 128]
  dot_S5000x128_S128x128_S5000x128_1_0_0_1_n_n_wf : DotDims.WF S5000x128 S128x128 S5000x128 [1] [0] [0] [1] [] []
  dot_S5000x32_S32x128_S5000x128_1_0_0_1_n_n_wf : DotDims.WF S5000x32 S32x128 S5000x128 [1] [0] [0] [1] [] []
  scatter_S100000x128_S500000x1_S500000x128_1_0_0_1_wf : ScatterDims.WF S100000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S500000x32.size a
  hwx0_1 : ∀ i : grid0.Coords, EltTy.bits .f32 = 32 ∨ (Rect.block (s := S500000x32) S5000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S500000x32.size a
  hwx0_2 : ∀ i : grid0.Coords, EltTy.bits .f32 = 32 ∨ (Rect.block (s := S500000x32) S5000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .f32 = 32 ∨ (Rect.block (s := S32x128) S32x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S500000x128.size a
  hwx0_7 : ∀ i : grid0.Coords, EltTy.bits .f32 = 32 ∨ (Rect.block (s := S500000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

abbrev win0_0 : Pipeline.Window sig grid0 :=
  Pipeline.Window.ofSpec (Memref.whole main_v10) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S500000x32 : Shape := ⟨2, ![500000, 32]⟩
abbrev S192x128 : Shape := ⟨2, ![192, 128]⟩
abbrev S128 : Shape := ⟨1, ![128]⟩
abbrev S128x128 : Shape := ⟨2, ![128, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x192 : Shape := ⟨2, ![500000, 192]⟩
abbrev S1x128 : Shape := ⟨2, ![1, 128]⟩
abbrev S600000x128 : Shape := ⟨2, ![600000, 128]⟩
abbrev S100000 : Shape := ⟨1, ![100000]⟩
abbrev S600000 : Shape := ⟨1, ![600000]⟩
abbrev S600000x1 : Shape := ⟨2, ![600000, 1]⟩
abbrev S100000x1 : Shape := ⟨2, ![100000, 1]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x500000, .i32⟩
  | .hbm, ⟨3, _⟩ => ⟨S500000x32, .f32⟩
  | .hbm, ⟨4, _⟩ => ⟨S500000x32, .f32⟩
  | .hbm, ⟨5, _⟩ => ⟨S100000x128, .f32⟩
  | .hbm, ⟨6, _⟩ => ⟨S192x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x500000, .i32⟩
  | .hbm, ⟨13, _⟩ => ⟨S500000, .i32⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000x1, .i32⟩
  | .hbm, ⟨22, _⟩ => ⟨S500000x128, .f32⟩
  | .hbm, ⟨23, _⟩ => ⟨S500000x192, .f32⟩
  | .hbm, ⟨24, _⟩ => ⟨S500000x128, .f32⟩
  | .hbm, ⟨25, _⟩ => ⟨S1x128, .f32⟩
  | .hbm, ⟨26, _⟩ => ⟨S500000x128, .f32⟩
  | .hbm, ⟨27, _⟩ => ⟨S500000x128, .f32⟩
  | .hbm, ⟨28, _⟩ => ⟨S_, .f32⟩
  | .hbm, ⟨29, _⟩ => ⟨S500000x128, .f32⟩
  | .hbm, ⟨30, _⟩ => ⟨S500000x128, .f32⟩
  | .hbm, ⟨31, _⟩ => ⟨S600000x128, .f32⟩
  | .hbm, ⟨32, _⟩ => ⟨S1x500000, .i32⟩
  | .hbm, ⟨33, _⟩ => ⟨S500000, .i32⟩
  | .hbm, ⟨34, _⟩ => ⟨S100000, .i32⟩
  | .hbm, ⟨35, _⟩ => ⟨S600000, .i32⟩
  | .hbm, ⟨36, _⟩ => ⟨S_, .f32⟩
  | .hbm, ⟨37, _⟩ => ⟨S100000x128, .f32⟩
  | .hbm, ⟨38, _⟩ => ⟨S600000x1, .i32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000, .f32⟩
  | .hbm, ⟨46, _⟩ => ⟨S100000x1, .f32⟩
  | .hbm, ⟨47, _⟩ => ⟨S_, .f32⟩
  | .hbm, ⟨48, _⟩ => ⟨S100000x1, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000, .f32⟩
  | .hbm, ⟨55, _⟩ => ⟨S100000x1, .f32⟩
  | .hbm, ⟨56, _⟩ => ⟨S_, .f32⟩
  | .hbm, ⟨57, _⟩ => ⟨S100000x1, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x1, .f32⟩
  | .hbm, ⟨63, _⟩ => ⟨S100000x1, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_cst : Ref sig .tc := ⟨.hbm, 28, rfl⟩
abbrev main_call0_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x32_S500000x32_S500000x192_d1 : Shape.Concatenates [S500000x128, S500000x32, S500000x32] S500000x192 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  concatenates_S500000x128_S100000x128_S600000x128_d0 : Shape.Concatenates [S500000x128, S100000x128] S600000x128 0
  slices_S2x500000_S1x500000_1_0 : S2x500000.Slices ![1, 0] S1x500000
  concatenates_S500000_S100000_S600000_d0 : Shape.Concatenates [S500000, S100000] S600000 0
  bcast_S_S100000x128 : S_.BroadcastsInDim S100000x128 (![] : Fin 0 → Fin S100000x128.rank)
  bcast_S600000_S600000x1_0 : S600000.BroadcastsInDim S600000x1 (![0] : Fin 1 → Fin S600000x1.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S500000x1_S500000x128_1_0_n_n_0_1_1128_wf : GatherDims.WF S100000x128 S500000x1 S500000x128 [1] [0] [] [0] [] 1 ![1, 128]
  dot_S500000x192_S192x128_S500000x128_1_0_0_1_n_n_wf : DotDims.WF S500000x192 S192x128 S500000x128 [1] [0] [0] [1] [] []
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x192_S192x128_S500000x128_1_0_0_1_n_n : DotDims S500000x192 S192x128 S500000x128 where
  lhsContracting := [1]
  rhsContracting := [0]
  lhsNonContracting := [0]
  rhsNonContracting := [1]
  lhsBatch := []
  rhsBatch := []
  wf := dot_S500000x192_S192x128_S500000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel's run with its result named.

  The program is two kernel launches among three stretches of host operations. Its run leaves every buffer that outlives
  the launches at the contents of the last boundary: the fold, from the launch memory, of each stretch's operations and of
  each launch's write-backs. The frame statement keeps only the twelve argument buffers of that final state; here the
  result buffer is read out of it as well, so the run's post names the result as the last boundary's contents at the
  second launch's output array, which is what that launch's write-backs leave.
-/
import proofs.«110367_j58823872086496_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and the
    twelve arguments end as launched. -/
theorem run : θ_run defs (onTc (τ := τ) (main (F := F))) ⟨m, fun _ => 0, ρ⟩ (fun r => ∀ c : Dev nD,
      r.2.mem ((c.tc : Thread nD τ).loc main_v22) = W4 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v22 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

/-- The last boundary's contents at the result buffer are what the second launch's write-backs leave in its output array. -/
theorem result_arr (c : Dev nD) :
    W4 m ρ c (Proc.devRef .tc main_v22) = (dat1 (V3 m ρ) c).arrAt 6 cfg1.N :=
  W4_arr m ρ c 6

/-- The first launch's output array, as the second stretch of host operations finds it, is what that launch's
    write-backs leave. -/
theorem msg_arr (c : Dev nD) :
    W2 m ρ c (Proc.devRef .tc main_v15) = (dat0 (V1 m ρ) c).arrAt 7 cfg0.N :=
  W2_arr m ρ c 7

end Cert.KernelIdeal.KRun

end
-- ==== Proof.Spec.lean ====
/-
  What both programs compute, entry by entry, on the extended reals.

  An edge's message, at output column o: the rectified sum of three dot products — the gathered source row against the
  first 128 rows of the message weight, the edge attributes against the next 32, the time embedding against the last 32
  — plus the bias. A node's output row: the aggregated row a (the messages summed into the node plus its boundary row)
  goes through a linear layer y = a·W + b, is centred by its mean over the 128 columns, scaled by the reciprocal square
  root of its variance plus a small constant, multiplied by the gain, shifted by the offset, and rectified.

  The means divide the plain column sum by the literal 128; the small constant and the rectifier's zero are the printed
  literals, kept as their words (the same words stand on both sides, so their values are never needed).
-/
import Idealize.ShloMosaic.PureOps.Ideal
import Idealize.ShloMosaic.Lib.ValueIdx

noncomputable section

open scoped BigOperators

namespace Cert.Spec

open Idealize.ShloMosaic

/-- The rectifier's threshold: the literal zero. -/
def zero : EReal := Ideal.ofBits .f32 0x00000000#32
/-- The number of columns a mean divides by: the literal 128. -/
def cols : EReal := Ideal.ofBits .f32 0x43000000#32
/-- The constant added to the variance: the literal nearest to one hundred-thousandth. -/
def eps : EReal := Ideal.ofBits .f32 0x3727C5AC#32

/-- One edge's message at one output column, from the gathered row `f`, the edge's attribute and time rows `ea`, `et`,
    that column of the three weight blocks `wg`, `wa`, `wt`, and the bias entry `b`. -/
def msgAt (f : Fin 128 → EReal) (ea et : Fin 32 → EReal) (wg : Fin 128 → EReal) (wa wt : Fin 32 → EReal)
    (b : EReal) : EReal :=
  max ((((∑ k, f k * wg k) + ∑ k, ea k * wa k) + ∑ k, et k * wt k) + b) zero

/-- Two rows added entry by entry: a node's summed messages and its boundary row. -/
def addRow (a b : Fin 128 → EReal) : Fin 128 → EReal := fun k => a k + b k

/-- The linear layer on one row. -/
def lin (a : Fin 128 → EReal) (W : Fin 128 → Fin 128 → EReal) (b : Fin 128 → EReal) (o : Fin 128) : EReal :=
  (∑ k, a k * W k o) + b o

/-- The mean of a row: its sum divided by the number of columns. -/
def mean (y : Fin 128 → EReal) : EReal := Ideal.div (∑ o, y o) cols

/-- One node's output at column `o`, from its aggregated row `a`. -/
def nodeAt (a : Fin 128 → EReal) (W : Fin 128 → Fin 128 → EReal) (b g be : Fin 128 → EReal) (o : Fin 128) : EReal :=
  max ((((lin a W b o - mean (lin a W b))
      * Ideal.rsqrt (mean (fun o' => (lin a W b o' - mean (lin a W b)) * (lin a W b o' - mean (lin a W b))) + eps))
      * g o) + be o) zero

end Cert.Spec

end
-- ==== Proof.HostK.lean ====
/-
  The idealized kernel's host operations, read where the two launches read them.

  Before the first launch the host cuts the edge list into its source row and its target row, wraps negative source
  indices around, gathers the source rows of the node table, cuts the message weight into its three row blocks and views
  the bias as one row. Between the launches it sums the first launch's messages into the node rows named by the target
  indices, starting from zeros, and views three more vectors as rows. No other buffer the launches read is written by
  the host, so those hold the launch memory.
-/
import proofs.«110367_j58823872086496_2_alg».proof.Proof.KRun
import Idealize.ShloMosaic.Lib.StableHlo.Run
import Idealize.ShloMosaic.PureOps.Ideal

set_option maxRecDepth 16384

noncomputable section

namespace Cert.KernelIdeal.HostK

open Cert.KernelIdeal Cert.KernelIdeal.Gen
open Idealize.ShloMosaic Idealize.ShloMosaic.TcCoe Idealize.ShloMosaic.Tactic Idealize.SL.Sem
open Idealize.ShloMosaic.StableHlo

variable (m : (ℓ : Loc nD τ sig) → Buf (Elt Ideal) ℓ) (ρ : Dev nD → PrngReg)

/-- The edges' source indices: the first row of the edge list as a vector of words. -/
def srcRow (x2 : (⟨S2x500000, .i32⟩ : BufTy).Contents (Elt Ideal)) : (⟨S500000, .i32⟩ : BufTy).Contents (Elt Ideal) :=
  shapeCast S500000 (extractStridedSlice S1x500000 ![0, 0] x2 slices_S2x500000_S1x500000_0_0) shapeCasts_S1x500000_S500000

/-- The edges' target indices: the second row. -/
def dstRow (x2 : (⟨S2x500000, .i32⟩ : BufTy).Contents (Elt Ideal)) : (⟨S500000, .i32⟩ : BufTy).Contents (Elt Ideal) :=
  shapeCast S500000 (extractStridedSlice S1x500000 ![1, 0] x2 slices_S2x500000_S1x500000_1_0) shapeCasts_S1x500000_S500000

/-- The source indices as the gather takes them: a negative word has the number of nodes added, and the vector is
    viewed as a column. -/
def srcCol (x2 : (⟨S2x500000, .i32⟩ : BufTy).Contents (Elt Ideal)) : (⟨S500000x1, .i32⟩ : BufTy).Contents (Elt Ideal) :=
  broadcastInDim S500000x1 ![0] bcast_S500000_S500000x1_0
    (select (cmpi .slt (srcRow x2) (broadcastInDim S500000 ![] bcast_S_S500000 (constantI S_ 32 0#32)))
      (addi (srcRow x2) (broadcastInDim S500000 ![] bcast_S_S500000 (constantI S_ 32 100000#32)))
      (srcRow x2))

/-- The target indices as the segment sum takes them: the second row of the edge list viewed as a column. -/
def dstCol (x2 : (⟨S2x500000, .i32⟩ : BufTy).Contents (Elt Ideal)) : (⟨S500000x1, .i32⟩ : BufTy).Contents (Elt Ideal) :=
  broadcastInDim S500000x1 ![0] bcast_S500000_S500000x1_0 (dstRow x2)

/-! ## What the first launch reads -/

theorem feat (c : Dev nD) : (V1 m ρ c main_v10 : S500000x128.Idx → EReal)
    = Host.gather gather_S100000x128_S500000x1_S500000x128_1_0_n_n_0_1_1128 (m ((c : Thread nD τ).loc main_arg0))
        (srcCol (m ((c : Thread nD τ).loc main_arg2))) := by
  show StableHlo.after hostOps0 (W0 m ρ c) (Proc.devRef .tc main_v10) = _
  after_results
  rfl

theorem eattr (c : Dev nD) : V1 m ρ c main_arg3 = m ((c : Thread nD τ).loc main_arg3) := by
  show StableHlo.after hostOps0 (W0 m ρ c) (Proc.devRef .tc main_arg3) = _
  after_results

theorem etime (c : Dev nD) : V1 m ρ c main_arg4 = m ((c : Thread nD τ).loc main_arg4) := by
  show StableHlo.after hostOps0 (W0 m ρ c) (Proc.devRef .tc main_arg4) = _
  after_results

/-- The message weight's first 128 rows. -/
theorem wg (c : Dev nD) : (V1 m ρ c main_v11 : S128x128.Idx → EReal)
    = extractStridedSlice S128x128 ![0, 0] (m ((c : Thread nD τ).loc main_arg6)) slices_S192x128_S128x128_0_0 := by
  show StableHlo.after hostOps0 (W0 m ρ c) (Proc.devRef .tc main_v11) = _
  after_results

/-- Its next 32 rows. -/
theorem wa (c : Dev nD) : (V1 m ρ c main_v12 : S32x128.Idx → EReal)
    = extractStridedSlice S32x128 ![128, 0] (m ((c : Thread nD τ).loc main_arg6)) slices_S192x128_S32x128_128_0 := by
  show StableHlo.after hostOps0 (W0 m ρ c) (Proc.devRef .tc main_v12) = _
  after_results

/-- Its last 32 rows. -/
theorem wt (c : Dev nD) : (V1 m ρ c main_v13 : S32x128.Idx → EReal)
    = extractStridedSlice S32x128 ![160, 0] (m ((c : Thread nD τ).loc main_arg6)) slices_S192x128_S32x128_160_0 := by
  show StableHlo.after hostOps0 (W0 m ρ c) (Proc.devRef .tc main_v13) = _
  after_results

/-- The message bias as one row. -/
theorem bmsg (c : Dev nD) : (V1 m ρ c main_v14 : S1x128.Idx → EReal)
    = shapeCast S1x128 (m ((c : Thread nD τ).loc main_arg7)) shapeCasts_S128_S1x128 := by
  show StableHlo.after hostOps0 (W0 m ρ c) (Proc.devRef .tc main_v14) = _
  after_results
  rfl

/-! ## What the second launch reads -/

/-- The target indices survive the first launch, which does not write them. -/
theorem dst_kept (c : Dev nD) : W2 m ρ c (Proc.devRef .tc main_v3) = dstRow (m ((c : Thread nD τ).loc main_arg2)) := by
  refine (W2_of_ne m ρ c main_v3 (by decide)).trans ?_
  show StableHlo.after hostOps0 (W0 m ρ c) (Proc.devRef .tc main_v3) = _
  after_results
  rfl

/-- A buffer neither the first stretch of host operations nor the first launch writes holds the launch memory when the
    second stretch begins. -/
theorem kept5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results
theorem kept8 (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results
theorem kept9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results
theorem kept10 (c : Dev nD) : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = _
  after_results
theorem kept11 (c : Dev nD) : W2 m ρ c (Proc.devRef .tc main_arg11) = m ((c : Thread nD τ).loc main_arg11) := by
  refine (W2_of_ne m ρ c main_arg11 (by decide)).trans ?_
  show StableHlo.after hostOps0 (W0 m ρ c) (Proc.devRef .tc main_arg11) = _
  after_results

/-- The messages summed into the node rows their target indices name, from zeros. -/
theorem seg (c : Dev nD) : (V3 m ρ c main_v18 : S100000x128.Idx → EReal)
    = Host.scatterAdd scatter_S100000x128_S500000x1_S500000x128_1_0_0_1
        (broadcastInDim S100000x128 ![] bcast_S_S100000x128 (constant (F := Ideal) S_ .f32 0x00000000#32))
        (dstCol (m ((c : Thread nD τ).loc main_arg2))) ((dat0 (V1 m ρ) c).arrAt 7 cfg0.N) := by
  show StableHlo.after hostOps1 (W2 m ρ c) (Proc.devRef .tc main_v18) = _
  after_results
  rw [dst_kept m ρ c, W2_arr m ρ c 7]
  rfl

theorem boundary (c : Dev nD) : V3 m ρ c main_arg5 = m ((c : Thread nD τ).loc main_arg5) := by
  show StableHlo.after hostOps1 (W2 m ρ c) (Proc.devRef .tc main_arg5) = _
  after_results
  exact kept5 m ρ c

theorem wlin (c : Dev nD) : V3 m ρ c main_arg8 = m ((c : Thread nD τ).loc main_arg8) := by
  show StableHlo.after hostOps1 (W2 m ρ c) (Proc.devRef .tc main_arg8) = _
  after_results
  exact kept8 m ρ c

/-- The linear layer's bias, the gain and the offset, each as one row. -/
theorem blin (c : Dev nD) : (V3 m ρ c main_v19 : S1x128.Idx → EReal)
    = shapeCast S1x128 (m ((c : Thread nD τ).loc main_arg9)) shapeCasts_S128_S1x128 := by
  show StableHlo.after hostOps1 (W2 m ρ c) (Proc.devRef .tc main_v19) = _
  after_results
  rw [kept9 m ρ c]
  rfl
theorem gain (c : Dev nD) : (V3 m ρ c main_v20 : S1x128.Idx → EReal)
    = shapeCast S1x128 (m ((c : Thread nD τ).loc main_arg10)) shapeCasts_S128_S1x128 := by
  show StableHlo.after hostOps1 (W2 m ρ c) (Proc.devRef .tc main_v20) = _
  after_results
  rw [kept10 m ρ c]
  rfl
theorem offset (c : Dev nD) : (V3 m ρ c main_v21 : S1x128.Idx → EReal)
    = shapeCast S1x128 (m ((c : Thread nD τ).loc main_arg11)) shapeCasts_S128_S1x128 := by
  show StableHlo.after hostOps1 (W2 m ρ c) (Proc.devRef .tc main_v21) = _
  after_results
  rw [kept11 m ρ c]
  rfl

end Cert.KernelIdeal.HostK

end
-- ==== Proof.LibHostSegmentSum.lean ====
/-
  `segment_sum` as it is printed, read at an entry of its result at the ideal instance.

  `operand.at[idx].add(updates)` for `operand : [B, F]`, `updates : [N, F]` and an integer vector `idx : [N]` is
  printed as a float scatter-add whose scatter indices are the column `[N, 1]`: update row `r` is one window
  `[1, F]` placed at operand row `idx r`, the start index read as a signed integer and NOT clamped, and dropped
  altogether when that row is outside `[0, B)`. So update entry `(r, f)` lands on operand entry `(idx r, f)` or
  nowhere, and at the ideal instance, where the accumulation is the exact sum, result entry `(b, f)` is the operand's
  entry plus the sum over the rows `r` with `idx r = b` of `updates (r, f)`.
-/
import Idealize.ShloMosaic.PureOps
import Idealize.ShloMosaic.PureOps.Ideal
import Idealize.ShloMosaic.Lib.ValueIdx

noncomputable section

open Idealize.ShloMosaic Idealize.ShloMosaic.ValueIdx

namespace Cert.HostInt

/-- The dimension numbers of `operand.at[idx].add(updates)`: operand `[B, F]`, scatter indices `[N, 1]`, updates `[N, F]`. -/
abbrev segSumDims (B F N : Nat)
    (wf : ScatterDims.WF ⟨2, ![B, F]⟩ ⟨2, ![N, 1]⟩ ⟨2, ![N, F]⟩ [1] [0] [0] 1) :
    ScatterDims ⟨2, ![B, F]⟩ ⟨2, ![N, 1]⟩ ⟨2, ![N, F]⟩ where
  updateWindowDims := [1]
  insertedWindowDims := [0]
  scatterDimsToOperandDims := [0]
  indexVectorDim := 1
  wf := wf

/-- The scatter-indices entry that update row `r` reads. -/
abbrev rowIdx {N : Nat} (r : Fin N) : (⟨2, ![N, 1]⟩ : Shape).Idx := ix2 r ⟨0, Nat.one_pos⟩

section
variable {B F N w : Nat} (wf : ScatterDims.WF ⟨2, ![B, F]⟩ ⟨2, ![N, 1]⟩ ⟨2, ![N, F]⟩ [1] [0] [0] 1)
  (idx : IVec ⟨2, ![N, 1]⟩ w) (r : Fin N) (f : Fin F)

theorem mem_sKept_iff (a : Fin 2) : a ∈ (segSumDims B F N wf).sKept ↔ a ∉ (segSumDims B F N wf).insertedWindowDims := by
  simp [ScatterDims.sKept, Shape.kept, List.mem_filter, List.mem_finRange]

/-- On the row axis the window starts at the row's start index, read signed. -/
theorem start_row : (segSumDims B F N wf).start (ix2 r f) idx 0 = (idx (rowIdx r)).toInt := by
  unfold ScatterDims.start
  rw [dif_pos (show (0 : Fin 2) ∈ (segSumDims B F N wf).scatterDimsToOperandDims from List.mem_singleton.mpr rfl)]
  have hsi : (segSumDims B F N wf).siIdx (ix2 r f)
      ⟨List.idxOf (0 : Fin 2) (segSumDims B F N wf).scatterDimsToOperandDims,
        List.idxOf_lt_length_iff.2 (List.mem_singleton.mpr rfl)⟩ = rowIdx r := by
    funext b; refine Fin.ext ?_
    match b with
    | ⟨0, _⟩ => rfl
    | ⟨1, _⟩ => rfl
  rw [hsi]

/-- On the column axis it starts at zero. -/
theorem start_col : (segSumDims B F N wf).start (ix2 r f) idx 1 = 0 := by
  unfold ScatterDims.start
  rw [dif_neg (show (1 : Fin 2) ∉ (segSumDims B F N wf).scatterDimsToOperandDims from
    fun h => absurd (show (1 : Nat) = 0 from congrArg Fin.val (List.mem_singleton.mp h)) Nat.one_ne_zero)]

/-- The row axis is inserted: no window coordinate on it. -/
theorem window_row : (segSumDims B F N wf).window (ix2 r f) 0 = 0 := by
  unfold ScatterDims.window
  rw [dif_neg (fun h => ((mem_sKept_iff wf 0).mp h) (List.mem_singleton.mpr rfl))]

/-- The column axis carries the update's column. -/
theorem window_col : (segSumDims B F N wf).window (ix2 r f) 1 = f.val := by
  unfold ScatterDims.window
  rw [dif_pos ((mem_sKept_iff wf 1).mpr fun h =>
    absurd (show (1 : Nat) = 0 from congrArg Fin.val (List.mem_singleton.mp h)) Nat.one_ne_zero)]
  rfl

/-- WHERE AN UPDATE LANDS: entry `(r, f)` lands on `(idx r, f)` when `idx r`, read signed, is a row of the operand,
    and is dropped otherwise. -/
theorem resultIdx?_rows :
    (segSumDims B F N wf).resultIdx? (ix2 r f) idx
      = if h : 0 ≤ (idx (rowIdx r)).toInt ∧ (idx (rowIdx r)).toInt < B then
          some (ix2 ⟨(idx (rowIdx r)).toInt.toNat, by omega⟩ f)
        else none := by
  unfold ScatterDims.resultIdx?
  by_cases h : 0 ≤ (idx (rowIdx r)).toInt ∧ (idx (rowIdx r)).toInt < B
  · have hall : ∀ a : Fin 2, 0 ≤ (segSumDims B F N wf).start (ix2 r f) idx a + (segSumDims B F N wf).window (ix2 r f) a
        ∧ (segSumDims B F N wf).start (ix2 r f) idx a + (segSumDims B F N wf).window (ix2 r f) a
          < ((⟨2, ![B, F]⟩ : Shape).size a : Int) := by
      intro a
      match a with
      | ⟨0, _⟩ =>
        show 0 ≤ (segSumDims B F N wf).start (ix2 r f) idx 0 + (segSumDims B F N wf).window (ix2 r f) 0
          ∧ (segSumDims B F N wf).start (ix2 r f) idx 0 + (segSumDims B F N wf).window (ix2 r f) 0 < (B : Int)
        rw [start_row, window_row]
        simpa using h
      | ⟨1, _⟩ =>
        show 0 ≤ (segSumDims B F N wf).start (ix2 r f) idx 1 + (segSumDims B F N wf).window (ix2 r f) 1
          ∧ (segSumDims B F N wf).start (ix2 r f) idx 1 + (segSumDims B F N wf).window (ix2 r f) 1 < (F : Int)
        rw [start_col, window_col]
        have := f.isLt
        omega
    rw [dif_pos hall, dif_pos h]
    refine congrArg some (funext fun a => Fin.ext ?_)
    match a with
    | ⟨0, _⟩ =>
      show ((segSumDims B F N wf).start (ix2 r f) idx 0 + (segSumDims B F N wf).window (ix2 r f) 0).toNat
        = (idx (rowIdx r)).toInt.toNat
      rw [start_row, window_row]
      simp
    | ⟨1, _⟩ =>
      show ((segSumDims B F N wf).start (ix2 r f) idx 1 + (segSumDims B F N wf).window (ix2 r f) 1).toNat = f.val
      rw [start_col, window_col]
      simp
  · rw [dif_neg h, dif_neg]
    intro hall
    have h0 := hall 0
    have h0' : 0 ≤ (segSumDims B F N wf).start (ix2 r f) idx 0 + (segSumDims B F N wf).window (ix2 r f) 0
        ∧ (segSumDims B F N wf).start (ix2 r f) idx 0 + (segSumDims B F N wf).window (ix2 r f) 0 < (B : Int) := h0
    rw [start_row, window_row] at h0'
    exact h (by simpa using h0')

end

/-- Two rank-two indices agree exactly when their coordinates do. -/
theorem ix2_eq_iff {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- THE SEGMENT SUM AT AN ENTRY, at the ideal instance: the operand's entry plus the updates of the rows whose start
    index, read signed, is `b`. -/
theorem scatterAdd_rows_apply {B F N w : Nat} {φ : FTy}
    (wf : ScatterDims.WF ⟨2, ![B, F]⟩ ⟨2, ![N, 1]⟩ ⟨2, ![N, F]⟩ [1] [0] [0] 1)
    (x : FVec Ideal ⟨2, ![B, F]⟩ φ) (idx : IVec ⟨2, ![N, 1]⟩ w) (upd : FVec Ideal ⟨2, ![N, F]⟩ φ)
    (b : Fin B) (f : Fin F) :
    Host.scatterAdd (F := Ideal) (segSumDims B F N wf) x idx upd (ix2 b f)
      = x (ix2 b f) + ∑ r : Fin N, if (idx (rowIdx r)).toInt = (b.val : Int) then upd (ix2 r f) else 0 := by
  show Ideal.hostScatterAdd (segSumDims B F N wf) x idx upd (ix2 b f) = _
  unfold Ideal.hostScatterAdd
  refine congrArg (x (ix2 b f) + ·) ?_
  rw [Finset.sum_filter, sum_idx2]
  refine Finset.sum_congr rfl fun r _ => ?_
  simp only [resultIdx?_rows]
  have hb := b.isLt
  by_cases h : 0 ≤ (idx (rowIdx r)).toInt ∧ (idx (rowIdx r)).toInt < B
  · simp only [dif_pos h, Option.some.injEq, ix2_eq_iff]
    by_cases ht : (idx (rowIdx r)).toInt = (b.val : Int)
    · rw [if_pos ht, Finset.sum_eq_single f]
      · rw [if_pos ⟨Fin.ext (by show (idx (rowIdx r)).toInt.toNat = b.val; omega), rfl⟩]
      · intro f' _ hf'
        rw [if_neg fun hh => hf' hh.2]
      · intro hf
        exact absurd (Finset.mem_univ _) hf
    · rw [if_neg ht]
      refine Finset.sum_eq_zero fun f' _ => ?_
      rw [if_neg]
      intro hh
      have : (idx (rowIdx r)).toInt.toNat = b.val := congrArg Fin.val hh.1
      omega
  · simp only [dif_neg h]
    rw [if_neg (by omega)]
    refine Finset.sum_eq_zero fun f' _ => ?_
    rw [if_neg (by simp)]

end Cert.HostInt

end
-- ==== Proof.KAgg.lean ====
/-
  The idealized kernel's host values, read at an entry.

  The three row blocks the host cuts out of the message weight read the weight at rows q, 128 + q and 160 + q. A vector
  viewed as one row reads the vector at the column. The target indices viewed as a column read the index of the row.
  The segment sum starts from zeros and adds message row r into the node row its target index names, so node p's
  summed row is the zero plus the messages whose target index, read signed, is p.
-/
import proofs.«110367_j58823872086496_2_alg».proof.Proof.HostK
import proofs.«110367_j58823872086496_2_alg».proof.Proof.Spec
import proofs.«110367_j58823872086496_2_alg».proof.Proof.LibHostSegmentSum
import Idealize.ShloMosaic.Lib.Pipeline.Value
import Idealize.ShloMosaic.Lib.ValueIdx

set_option maxRecDepth 16384

noncomputable section

open scoped BigOperators

namespace Cert.KernelIdeal.KAgg

open Cert.KernelIdeal Cert.KernelIdeal.Gen Cert.KernelIdeal.HostK
open Idealize.ShloMosaic Idealize.ShloMosaic.TcCoe Idealize.ShloMosaic.ValueIdx Idealize.SL.Sem Cert.HostInt

/-- The weight's first block at (q, o) is the weight at (q, o). -/
theorem slice_wg (x6 : (⟨S192x128, .f32⟩ : BufTy).Contents (Elt Ideal)) (q : Fin 128) (o : Fin 128) :
    extractStridedSlice S128x128 ![0, 0] x6 slices_S192x128_S128x128_0_0 (ix2 q o)
      = x6 (ix2 (⟨q.val, by omega⟩ : Fin 192) o) :=
  extractStridedSlice_apply _ x6 slices_S192x128_S128x128_0_0 (ix2 q o) (ix2 (⟨q.val, by omega⟩ : Fin 192) o)
    (fun a => by match a with
      | ⟨0, _⟩ => show q.val = 0 + q.val; omega
      | ⟨1, _⟩ => show o.val = 0 + o.val; omega)

/-- Its second block at (q, o) is the weight at (128 + q, o). -/
theorem slice_wa (x6 : (⟨S192x128, .f32⟩ : BufTy).Contents (Elt Ideal)) (q : Fin 32) (o : Fin 128) :
    extractStridedSlice S32x128 ![128, 0] x6 slices_S192x128_S32x128_128_0 (ix2 q o)
      = x6 (ix2 (⟨128 + q.val, by omega⟩ : Fin 192) o) :=
  extractStridedSlice_apply _ x6 slices_S192x128_S32x128_128_0 (ix2 q o) (ix2 (⟨128 + q.val, by omega⟩ : Fin 192) o)
    (fun a => by match a with
      | ⟨0, _⟩ => rfl
      | ⟨1, _⟩ => show o.val = 0 + o.val; omega)

/-- Its third block at (q, o) is the weight at (160 + q, o). -/
theorem slice_wt (x6 : (⟨S192x128, .f32⟩ : BufTy).Contents (Elt Ideal)) (q : Fin 32) (o : Fin 128) :
    extractStridedSlice S32x128 ![160, 0] x6 slices_S192x128_S32x128_160_0 (ix2 q o)
      = x6 (ix2 (⟨160 + q.val, by omega⟩ : Fin 192) o) :=
  extractStridedSlice_apply _ x6 slices_S192x128_S32x128_160_0 (ix2 q o) (ix2 (⟨160 + q.val, by omega⟩ : Fin 192) o)
    (fun a => by match a with
      | ⟨0, _⟩ => rfl
      | ⟨1, _⟩ => show o.val = 0 + o.val; omega)

/-- A vector of 128 entries viewed as one row reads, at (0, o), the vector at o. -/
theorem row_of_vec (x : (⟨S128, .f32⟩ : BufTy).Contents (Elt Ideal)) (o : Fin 128) :
    shapeCast S1x128 x shapeCasts_S128_S1x128 (ix2 (0 : Fin 1) o) = x (ix1 o) :=
  shapeCast_apply x shapeCasts_S128_S1x128 (ix2 (0 : Fin 1) o) (ix1 o)
    (by rw [Shape.rowMajor_val_one, Shape.rowMajor_val_two]; show o.val = 0 * 128 + o.val; omega)

/-- The target column at row r is edge r's target index. -/
theorem dstCol_at (x2 : (⟨S2x500000, .i32⟩ : BufTy).Contents (Elt Ideal)) (r : Fin 500000) :
    dstCol x2 (rowIdx r) = dstRow x2 (ix1 r) := by
  unfold dstCol
  exact broadcastInDim_apply _ bcast_S500000_S500000x1_0 (dstRow x2) (rowIdx r) (ix1 r) (fun a => by
    match a with
    | ⟨0, _⟩ => show r.val = if (500000 : Nat) = 1 then 0 else r.val; rw [if_neg (by decide)])

/-- NODE p's SUMMED ROW at column k, for any array `U` of update rows: the zero the sum starts from plus the rows of `U`
    whose target index, read signed, is p. -/
theorem segSum_entry (x2 : (⟨S2x500000, .i32⟩ : BufTy).Contents (Elt Ideal))
    (U : (⟨S500000x128, .f32⟩ : BufTy).Contents (Elt Ideal)) (p : Fin 100000) (k : Fin 128) :
    Host.scatterAdd (F := Ideal) scatter_S100000x128_S500000x1_S500000x128_1_0_0_1
        (broadcastInDim S100000x128 ![] bcast_S_S100000x128 (constant (F := Ideal) S_ .f32 0x00000000#32))
        (dstCol x2) U (ix2 p k)
      = Cert.Spec.zero + ∑ r : Fin 500000, if (dstRow x2 (ix1 r)).toInt = (p.val : ℤ) then U (ix2 r k) else 0 := by
  show Host.scatterAdd (F := Ideal) (segSumDims 100000 128 500000 scatter_S100000x128_S500000x1_S500000x128_1_0_0_1_wf)
      (broadcastInDim S100000x128 ![] bcast_S_S100000x128 (constant (F := Ideal) S_ .f32 0x00000000#32))
      (dstCol x2) U (ix2 p k) = _
  rw [scatterAdd_rows_apply]
  have hz : broadcastInDim S100000x128 ![] bcast_S_S100000x128 (constant (F := Ideal) S_ .f32 0x00000000#32) (ix2 p k)
      = Cert.Spec.zero := rfl
  rw [hz]
  refine congrArg (Cert.Spec.zero + ·) (Finset.sum_congr rfl fun r _ => ?_)
  rw [dstCol_at]

end Cert.KernelIdeal.KAgg

end
-- ==== Proof.SumLaws.lean ====
/-
  Two ways of cutting a finite sum, in any commutative monoid.

  A sum over 192 terms is the sum of its first 128, its next 32 and its last 32. A sum over 600000 terms is the sum of
  its first 500000 and its last 100000. And when the last 100000 terms are nonzero only at the one position p, what
  they add is the term at p.
-/
import Mathlib.Algebra.BigOperators.Fin

open scoped BigOperators

namespace Cert.SumLaws

variable {M : Type} [AddCommMonoid M]

/-- A sum over `a + b` terms, the positions named by their numbers. -/
theorem sum_add_split (a b : ℕ) (f : Fin (a + b) → M) :
    ∑ q : Fin (a + b), f q
      = (∑ q : Fin a, f ⟨q.val, by omega⟩) + ∑ q : Fin b, f ⟨a + q.val, by omega⟩ := by
  rw [Fin.sum_univ_add]
  rfl

/-- 192 = 128 + 32 + 32. -/
theorem sum_192 (f : Fin 192 → M) :
    ∑ q : Fin 192, f q
      = ((∑ q : Fin 128, f ⟨q.val, by omega⟩) + ∑ q : Fin 32, f ⟨128 + q.val, by omega⟩)
        + ∑ q : Fin 32, f ⟨160 + q.val, by omega⟩ := by
  rw [show (∑ q : Fin 192, f q) = ∑ q : Fin (160 + 32), f q from rfl, sum_add_split 160 32 f,
    show (∑ q : Fin 160, f ⟨q.val, by omega⟩) = ∑ q : Fin (128 + 32), f ⟨q.val, by omega⟩ from rfl,
    sum_add_split 128 32 fun q => f ⟨q.val, by omega⟩]

/-- 600000 = 500000 + 100000. -/
theorem sum_600000 (g : Fin 600000 → M) :
    ∑ r : Fin 600000, g r
      = (∑ r : Fin 500000, g ⟨r.val, by omega⟩) + ∑ j : Fin 100000, g ⟨500000 + j.val, by omega⟩ := by
  rw [show (∑ r : Fin 600000, g r) = ∑ r : Fin (500000 + 100000), g r from rfl, sum_add_split 500000 100000 g]

/-- Terms that vanish away from one position add up to the term there. -/
theorem sum_single_pos (n : ℕ) (p : Fin n) (B : Fin n → M) :
    (∑ j : Fin n, if ((j.val : ℤ) = (p.val : ℤ)) then B j else 0) = B p := by
  rw [Finset.sum_eq_single p]
  · rw [if_pos rfl]
  · intro j _ hj
    rw [if_neg]
    intro h
    exact hj (Fin.ext (by exact_mod_cast h))
  · intro h
    exact absurd (Finset.mem_univ p) h

end Cert.SumLaws
-- ==== Proof.RefAgg.lean ====
/-
  The reference's aggregation, read at an entry.

  The reference sums 600000 rows into the 100000 node rows: the 500000 messages, each into the row its edge's target
  index names, followed by the 100000 boundary rows, row j into node j (its index is the j-th entry of a count from
  zero). An update lands on node p exactly when its index word, read signed, is p; the count's entry j is the word of
  the number j, which reads back as j. So node p's row is the zero it starts from, plus the messages aimed at p, plus
  boundary row p.
-/
import proofs.«110367_j58823872086496_2_alg».proof.Proof.Gen.ReferenceIdeal.Read
import proofs.«110367_j58823872086496_2_alg».proof.Proof.Spec
import proofs.«110367_j58823872086496_2_alg».proof.Proof.SumLaws
import proofs.«110367_j58823872086496_2_alg».proof.Proof.LibHostSegmentSum
import Idealize.ShloMosaic.Lib.Pipeline.Value
import Idealize.ShloMosaic.Lib.ValueIdx

noncomputable section

open scoped BigOperators

namespace Cert.ReferenceIdeal.RefAgg

open Cert.ReferenceIdeal Cert.ReferenceIdeal.Gen Cert.ReferenceIdeal.Read
open Idealize.ShloMosaic Idealize.ShloMosaic.ValueIdx Cert.HostInt

/-- A small number's 32-bit word reads back, signed, as the number. -/
theorem toInt_ofNat_small (j : ℕ) (h : j < 100000) : (BitVec.ofNat 32 j).toInt = (j : ℤ) := by
  rw [BitVec.toInt_eq_toNat_cond, BitVec.toNat_ofNat]
  have hm : j % 2 ^ 32 = j := Nat.mod_eq_of_lt (by omega)
  rw [hm, if_pos (by omega)]

variable (x0 : (⟨S100000x128, .f32⟩ : BufTy).Contents (Elt Ideal)) (x2 : (⟨S2x500000, .i32⟩ : BufTy).Contents (Elt Ideal))
  (x3 x4 : (⟨S500000x32, .f32⟩ : BufTy).Contents (Elt Ideal)) (x5 : (⟨S100000x128, .f32⟩ : BufTy).Contents (Elt Ideal))
  (x6 : (⟨S192x128, .f32⟩ : BufTy).Contents (Elt Ideal)) (x7 : (⟨S128, .f32⟩ : BufTy).Contents (Elt Ideal))

/-- The index column at one of the first 500000 rows is that edge's target index. -/
theorem idx_msg (r : Fin 500000) :
    val_main_v21 (F := Ideal) x2 (rowIdx (⟨r.val, by omega⟩ : Fin 600000)) = val_main_v17 (F := Ideal) x2 (ix1 r) := by
  rw [val_main_v21_apply]
  unfold val_main_v19
  exact concatenate_pair_apply_left (t := S600000) (s₁ := S500000) (s₂ := S100000) (0 : Fin 1) _ _ concatenates_S500000_S100000_S600000_d0 _ rfl (ix1 r)
    (fun b => by match b with | ⟨0, _⟩ => rfl)

/-- At one of the last 100000 rows it is the word of the row's number among them. -/
theorem idx_bnd (j : Fin 100000) :
    val_main_v21 (F := Ideal) x2 (rowIdx (⟨500000 + j.val, by omega⟩ : Fin 600000)) = BitVec.ofNat 32 j.val := by
  rw [val_main_v21_apply]
  unfold val_main_v19
  exact concatenate_pair_apply_right (t := S600000) (s₁ := S500000) (s₂ := S100000) (0 : Fin 1) _ _ concatenates_S500000_S100000_S600000_d0 _ rfl rfl (ix1 j)
    (fun b hb => absurd (Subsingleton.elim _ _) hb)
    (by show j.val + 500000 = 500000 + j.val; omega)

/-- The summed rows: one of the first 500000 is that edge's message … -/
theorem upd_msg (r : Fin 500000) (k : Fin 128) :
    val_main_v15 (F := Ideal) x0 x2 x3 x4 x5 x6 x7 (ix2 (⟨r.val, by omega⟩ : Fin 600000) k)
      = val_main_v14 (F := Ideal) x0 x2 x3 x4 x6 x7 (ix2 r k) := by
  unfold val_main_v15
  exact concatenate_pair_apply_left (t := S600000x128) (s₁ := S500000x128) (s₂ := S100000x128) (0 : Fin 2) _ _ concatenates_S500000x128_S100000x128_S600000x128_d0 _ rfl (ix2 r k)
    (fun b => by match b with | ⟨0, _⟩ => rfl | ⟨1, _⟩ => rfl)

/-- … and one of the last 100000 is that node's boundary row. -/
theorem upd_bnd (j : Fin 100000) (k : Fin 128) :
    val_main_v15 (F := Ideal) x0 x2 x3 x4 x5 x6 x7 (ix2 (⟨500000 + j.val, by omega⟩ : Fin 600000) k) = x5 (ix2 j k) := by
  unfold val_main_v15
  exact concatenate_pair_apply_right (t := S600000x128) (s₁ := S500000x128) (s₂ := S100000x128) (0 : Fin 2) _ _ concatenates_S500000x128_S100000x128_S600000x128_d0 _ rfl rfl (ix2 j k)
    (fun b hb => by match b with | ⟨0, _⟩ => exact absurd rfl hb | ⟨1, _⟩ => rfl)
    (by show j.val + 500000 = 500000 + j.val; omega)

/-- NODE p's AGGREGATED ROW, at column k: the zero it starts from, plus the messages whose target index is p, plus the
    boundary row's entry. -/
theorem agg_entry (p : Fin 100000) (k : Fin 128) :
    val_main_v22 (F := Ideal) x0 x2 x3 x4 x5 x6 x7 (ix2 p k)
      = (Cert.Spec.zero + ∑ r : Fin 500000,
            if (val_main_v17 (F := Ideal) x2 (ix1 r)).toInt = (p.val : ℤ)
              then val_main_v14 (F := Ideal) x0 x2 x3 x4 x6 x7 (ix2 r k) else 0)
          + x5 (ix2 p k) := by
  show Host.scatterAdd (F := Ideal) (segSumDims 100000 128 600000 scatter_S100000x128_S600000x1_S600000x128_1_0_0_1_wf)
      (val_main_v20 (F := Ideal)) (val_main_v21 (F := Ideal) x2) (val_main_v15 (F := Ideal) x0 x2 x3 x4 x5 x6 x7) (ix2 p k) = _
  rw [scatterAdd_rows_apply, Cert.SumLaws.sum_600000]
  have hz : val_main_v20 (F := Ideal) (ix2 p k) = Cert.Spec.zero := rfl
  rw [hz, add_assoc]
  refine congrArg (Cert.Spec.zero + ·) (congrArg₂ (· + ·) ?_ ?_)
  · refine Finset.sum_congr rfl fun r _ => ?_
    rw [idx_msg, upd_msg]
  · have : ∀ j : Fin 100000,
        (if (val_main_v21 (F := Ideal) x2 (rowIdx (⟨500000 + j.val, by omega⟩ : Fin 600000))).toInt = (p.val : ℤ)
          then val_main_v15 (F := Ideal) x0 x2 x3 x4 x5 x6 x7 (ix2 (⟨500000 + j.val, by omega⟩ : Fin 600000) k) else 0)
        = if ((j.val : ℤ) = (p.val : ℤ)) then x5 (ix2 j k) else 0 := by
      intro j
      rw [idx_bnd, upd_bnd, toInt_ofNat_small j.val j.isLt]
    rw [Finset.sum_congr rfl fun j _ => this j]
    exact Cert.SumLaws.sum_single_pos 100000 p fun j => x5 (ix2 j k)

end Cert.ReferenceIdeal.RefAgg

end
-- ==== Proof.RefCat.lean ====
/-
  The reference's message input, read piece by piece.

  The reference joins the gathered source rows (128 columns), the edge attributes (32) and the time embedding (32) into
  rows of 192 columns and multiplies by the whole message weight. Column q of a joined row is the gathered row's entry q
  for q < 128, the attributes' entry q − 128 for 128 ≤ q < 160 and the embedding's entry q − 160 from there on, so the
  192-term dot product is the sum of three dot products against the weight's three row blocks.
-/
import proofs.«110367_j58823872086496_2_alg».proof.Proof.Gen.ReferenceIdeal.Read
import proofs.«110367_j58823872086496_2_alg».proof.Proof.SumLaws
import Idealize.ShloMosaic.Lib.Pipeline.Value
import Idealize.ShloMosaic.Lib.ValueIdx

noncomputable section

open scoped BigOperators

namespace Cert.ReferenceIdeal.RefCat

open Cert.ReferenceIdeal Cert.ReferenceIdeal.Gen Cert.ReferenceIdeal.Read
open Idealize.ShloMosaic Idealize.ShloMosaic.ValueIdx

variable (x0 : (⟨S100000x128, .f32⟩ : BufTy).Contents (Elt Ideal)) (x2 : (⟨S2x500000, .i32⟩ : BufTy).Contents (Elt Ideal))
  (x3 x4 : (⟨S500000x32, .f32⟩ : BufTy).Contents (Elt Ideal)) (x6 : (⟨S192x128, .f32⟩ : BufTy).Contents (Elt Ideal))

/-- The first 128 columns are the gathered row. -/
theorem cat_feat (e : Fin 500000) (q : Fin 128) :
    val_main_v9 (F := Ideal) x0 x2 x3 x4 (ix2 e (⟨q.val, by omega⟩ : Fin 192)) = val_main_v8 (F := Ideal) x0 x2 (ix2 e q) := by
  unfold val_main_v9
  exact concatenate_apply_piece (t := S500000x192) (1 : Fin 2) [⟨S500000x128, val_main_v8 (F := Ideal) x0 x2⟩, ⟨S500000x32, x3⟩, ⟨S500000x32, x4⟩] concatenates_S500000x128_S500000x32_S500000x32_S500000x192_d1 _
    0 (by show 0 < 3; omega) S500000x128 _ rfl rfl 0 rfl (ix2 e q)
    (fun b hb => by match b with | ⟨0, _⟩ => rfl | ⟨1, _⟩ => exact absurd rfl hb)
    (by show 0 + q.val = q.val; omega)

/-- The next 32 are the edge's attributes. -/
theorem cat_attr (e : Fin 500000) (q : Fin 32) :
    val_main_v9 (F := Ideal) x0 x2 x3 x4 (ix2 e (⟨128 + q.val, by omega⟩ : Fin 192)) = x3 (ix2 e q) := by
  unfold val_main_v9
  exact concatenate_apply_piece (t := S500000x192) (1 : Fin 2) [⟨S500000x128, val_main_v8 (F := Ideal) x0 x2⟩, ⟨S500000x32, x3⟩, ⟨S500000x32, x4⟩] concatenates_S500000x128_S500000x32_S500000x32_S500000x192_d1 _
    1 (by show 1 < 3; omega) S500000x32 _ rfl rfl 128 rfl (ix2 e q)
    (fun b hb => by match b with | ⟨0, _⟩ => rfl | ⟨1, _⟩ => exact absurd rfl hb)
    (by show 128 + q.val = 128 + q.val; rfl)

/-- The last 32 are its time embedding. -/
theorem cat_time (e : Fin 500000) (q : Fin 32) :
    val_main_v9 (F := Ideal) x0 x2 x3 x4 (ix2 e (⟨160 + q.val, by omega⟩ : Fin 192)) = x4 (ix2 e q) := by
  unfold val_main_v9
  exact concatenate_apply_piece (t := S500000x192) (1 : Fin 2) [⟨S500000x128, val_main_v8 (F := Ideal) x0 x2⟩, ⟨S500000x32, x3⟩, ⟨S500000x32, x4⟩] concatenates_S500000x128_S500000x32_S500000x32_S500000x192_d1 _
    2 (by show 2 < 3; omega) S500000x32 _ rfl rfl 160 rfl (ix2 e q)
    (fun b hb => by match b with | ⟨0, _⟩ => rfl | ⟨1, _⟩ => exact absurd rfl hb)
    (by show 160 + q.val = 160 + q.val; rfl)

/-- THE 192-TERM DOT PRODUCT of a joined row with a column of the weight is the sum of the three blocks' dot products. -/
theorem cat_sum (e : Fin 500000) (o : Fin 128) :
    (∑ q : Fin 192, val_main_v9 (F := Ideal) x0 x2 x3 x4 (ix2 e q) * x6 (ix2 q o))
      = ((∑ q : Fin 128, val_main_v8 (F := Ideal) x0 x2 (ix2 e q) * x6 (ix2 (⟨q.val, by omega⟩ : Fin 192) o))
          + ∑ q : Fin 32, x3 (ix2 e q) * x6 (ix2 (⟨128 + q.val, by omega⟩ : Fin 192) o))
        + ∑ q : Fin 32, x4 (ix2 e q) * x6 (ix2 (⟨160 + q.val, by omega⟩ : Fin 192) o) := by
  rw [Cert.SumLaws.sum_192]
  simp only [cat_feat, cat_attr, cat_time]

end Cert.ReferenceIdeal.RefCat

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.MsgValue.lean ====
/-
  The first launch's output array, entry by entry, at the ideal values.

  The launch runs over 100 row-blocks of 5000 edges. At each point it loads row-block t of the gathered source rows
  (128 columns), of the edge attributes and of the time embeddings (32 columns each), the three weight blocks whole
  (128×128, 32×128, 32×128) and the one-row bias, and stores, whole, the 5000×128 block whose entry (r, o) is

      max (∑ k, f(r,k)·Wg(k,o) + ∑ k, a(r,k)·Wa(k,o) + ∑ k, s(r,k)·Wt(k,o) + b(0,o), 0)

  — each product a sum over the one contracted axis, into a zero accumulator; the casts to the narrower format are the
  identity on extended reals. Row r of block t is row t·5000 + r of the array, the weight and bias blocks are their
  arrays; the 100 row-blocks cover the 500000 rows (row e lies in block e / 5000), and every point writes its block
  back. So the array ends holding, at (e, o), the message of edge e at column o.
-/
import proofs.«110367_j58823872086496_2_alg».proof.Proof.Gen.KernelIdeal.Frame
import proofs.«110367_j58823872086496_2_alg».proof.Proof.Spec
import proofs.«110367_j58823872086496_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section
open Idealize.ShloMosaic Idealize.ShloMosaic.TcCoe Idealize.ShloMosaic.ValueIdx Idealize.SL.Sem
open scoped BigOperators

namespace Cert.KernelIdeal.MsgValue
open Cert.KernelIdeal Cert.KernelIdeal.Gen

/-! ## The block's arithmetic at an entry -/

/-- A product with the plain dimension numbers into the zero accumulator, at an entry: 5000×128 by 128×128. -/
theorem mmG (L : FVec Ideal S5000x128 .bf16) (R : FVec Ideal S128x128 .bf16) (r : Fin 5000) (o : Fin 128) :
    matmul dot_S5000x128_S128x128_S5000x128_1_0_0_1_n_n none L R (constant S5000x128 .f32 0x00000000#32) (ix2 r o)
      = ∑ k : Fin 128, L (ix2 r k) * R (ix2 k o) :=
  Cert.LibPlainDot.matmul_zero_apply (n := 5000) (a := 128) (b := 128) none L R r o

/-- The same, 5000×32 by 32×128. -/
theorem mmA (L : FVec Ideal S5000x32 .bf16) (R : FVec Ideal S32x128 .bf16) (r : Fin 5000) (o : Fin 128) :
    matmul dot_S5000x32_S32x128_S5000x128_1_0_0_1_n_n none L R (constant S5000x128 .f32 0x00000000#32) (ix2 r o)
      = ∑ k : Fin 32, L (ix2 r k) * R (ix2 k o) :=
  Cert.LibPlainDot.matmul_zero_apply (n := 5000) (a := 32) (b := 128) none L R r o

/-- Row r, column o of what one grid point computes from its seven loaded blocks: the three products' entries are
    sums over the contraction index of row r of the left block against column o of the right one (the casts to the
    narrower format change nothing at the ideal values, the same-shape casts are the identity), the bias row is read at
    column o on every row, and the rectifier's threshold is the literal zero. -/
theorem pay_entry (x0 : Vec Ideal S5000x128 .f32) (x1 x2 : Vec Ideal S5000x32 .f32) (x3 : Vec Ideal S128x128 .f32)
    (x4 x5 : Vec Ideal S32x128 .f32) (x6 : Vec Ideal S1x128 .f32) (r : Fin 5000) (o : Fin 128) :
    k0_pay1 (F := Ideal) x0 x1 x2 x3 x4 x5 x6 (ix2 r o)
      = Cert.Spec.msgAt (fun k => x0 (ix2 r k)) (fun k => x1 (ix2 r k)) (fun k => x2 (ix2 r k))
          (fun k => x3 (ix2 k o)) (fun k => x4 (ix2 k o)) (fun k => x5 (ix2 k o)) (x6 (ix2 0 o)) := by
  unfold k0_pay1
  simp only [shapeCast_self]
  rw [maximumf_apply, addf_apply, addf_apply, addf_apply, mmG, mmA, mmA,
    broadcastTo_1b_ab_apply (a := 5000) (b := 128) x6 broadcasts_S1x128_S5000x128 r o]
  rfl

/-! ## Where a block's entry sits in its array -/

/-- The whole-block rectangles start at offset zero on both axes. -/
theorem zero_offsets : (![0, 0] : Fin 2 → Nat) = fun _ => 0 := funext fun a => by fin_cases a <;> rfl

/-- The printed index maps over the grid: the three edge operands and the result move one row-block per point, the
    three weight blocks and the bias stay at block (0, 0). -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

section Blocks
variable (V : (c : Dev nD) → (b : Ref sig .tc) → Buf (Elt Ideal) ((c : Thread nD τ).loc b)) (c : Dev nD)

/-- The gathered rows' block at point t, row r: row t·5000 + r of the array. -/
theorem blk0_apply (t : Fin cfg0.N) (r : Fin 5000) (k : Fin 128) (e : Fin 500000) (he : e.val = t.val * 5000 + r.val) :
    (iblk0 V c 0 t : Vec Ideal S5000x128 .f32) (ix2 r k) = (V c main_v10 : S500000x128.Idx → EReal) (ix2 e k) := by
  obtain ⟨⟨h0, h1⟩, -⟩ := block_indices t
  unfold iblk0
  rw [View.read_apply]
  show V c main_v10 _ = V c main_v10 _
  congr 1
  funext a
  apply Fin.ext
  match a with
  | ⟨0, _⟩ => show win0_0.index t (0 : Fin 2) * 5000 + 1 * r.val = e.val; rw [h0, he]; omega
  | ⟨1, _⟩ => show win0_0.index t (1 : Fin 2) * 128 + 1 * k.val = k.val; rw [h1]; omega

/-- The edge attributes' block at point t, row r: row t·5000 + r of the array. -/
theorem blk1_apply (t : Fin cfg0.N) (r : Fin 5000) (k : Fin 32) (e : Fin 500000) (he : e.val = t.val * 5000 + r.val) :
    (iblk0 V c 1 t : Vec Ideal S5000x32 .f32) (ix2 r k) = (V c main_arg3 : S500000x32.Idx → EReal) (ix2 e k) := by
  obtain ⟨-, ⟨h0, h1⟩, -⟩ := block_indices t
  unfold iblk0
  rw [View.read_apply]
  show V c main_arg3 _ = V c main_arg3 _
  congr 1
  funext a
  apply Fin.ext
  match a with
  | ⟨0, _⟩ => show win0_1.index t (0 : Fin 2) * 5000 + 1 * r.val = e.val; rw [h0, he]; omega
  | ⟨1, _⟩ => show win0_1.index t (1 : Fin 2) * 32 + 1 * k.val = k.val; rw [h1]; omega

/-- The time embeddings' block at point t, row r: row t·5000 + r of the array. -/
theorem blk2_apply (t : Fin cfg0.N) (r : Fin 5000) (k : Fin 32) (e : Fin 500000) (he : e.val = t.val * 5000 + r.val) :
    (iblk0 V c 2 t : Vec Ideal S5000x32 .f32) (ix2 r k) = (V c main_arg4 : S500000x32.Idx → EReal) (ix2 e k) := by
  obtain ⟨-, -, ⟨h0, h1⟩, -⟩ := block_indices t
  unfold iblk0
  rw [View.read_apply]
  show V c main_arg4 _ = V c main_arg4 _
  congr 1
  funext a
  apply Fin.ext
  match a with
  | ⟨0, _⟩ => show win0_2.index t (0 : Fin 2) * 5000 + 1 * r.val = e.val; rw [h0, he]; omega
  | ⟨1, _⟩ => show win0_2.index t (1 : Fin 2) * 32 + 1 * k.val = k.val; rw [h1]; omega

/-- The first weight block is its whole array at every point. -/
theorem blk3_apply (t : Fin cfg0.N) (k : Fin 128) (o : Fin 128) :
    (iblk0 V c 3 t : Vec Ideal S128x128 .f32) (ix2 k o) = (V c main_v11 : S128x128.Idx → EReal) (ix2 k o) := by
  obtain ⟨-, -, -, ⟨h0, h1⟩, -⟩ := block_indices t
  unfold iblk0
  rw [View.read_apply]
  show V c main_v11 _ = V c main_v11 _
  congr 1
  funext a
  apply Fin.ext
  match a with
  | ⟨0, _⟩ => show win0_3.index t (0 : Fin 2) * 128 + 1 * k.val = k.val; rw [h0]; omega
  | ⟨1, _⟩ => show win0_3.index t (1 : Fin 2) * 128 + 1 * o.val = o.val; rw [h1]; omega

/-- The second weight block is its whole array at every point. -/
theorem blk4_apply (t : Fin cfg0.N) (k : Fin 32) (o : Fin 128) :
    (iblk0 V c 4 t : Vec Ideal S32x128 .f32) (ix2 k o) = (V c main_v12 : S32x128.Idx → EReal) (ix2 k o) := by
  obtain ⟨-, -, -, -, ⟨h0, h1⟩, -⟩ := block_indices t
  unfold iblk0
  rw [View.read_apply]
  show V c main_v12 _ = V c main_v12 _
  congr 1
  funext a
  apply Fin.ext
  match a with
  | ⟨0, _⟩ => show win0_4.index t (0 : Fin 2) * 32 + 1 * k.val = k.val; rw [h0]; omega
  | ⟨1, _⟩ => show win0_4.index t (1 : Fin 2) * 128 + 1 * o.val = o.val; rw [h1]; omega

/-- The third weight block is its whole array at every point. -/
theorem blk5_apply (t : Fin cfg0.N) (k : Fin 32) (o : Fin 128) :
    (iblk0 V c 5 t : Vec Ideal S32x128 .f32) (ix2 k o) = (V c main_v13 : S32x128.Idx → EReal) (ix2 k o) := by
  obtain ⟨-, -, -, -, -, ⟨h0, h1⟩, -⟩ := block_indices t
  unfold iblk0
  rw [View.read_apply]
  show V c main_v13 _ = V c main_v13 _
  congr 1
  funext a
  apply Fin.ext
  match a with
  | ⟨0, _⟩ => show win0_5.index t (0 : Fin 2) * 32 + 1 * k.val = k.val; rw [h0]; omega
  | ⟨1, _⟩ => show win0_5.index t (1 : Fin 2) * 128 + 1 * o.val = o.val; rw [h1]; omega

/-- The bias block is its whole one-row array at every point. -/
theorem blk6_apply (t : Fin cfg0.N) (o : Fin 128) :
    (iblk0 V c 6 t : Vec Ideal S1x128 .f32) (ix2 0 o) = (V c main_v14 : S1x128.Idx → EReal) (ix2 0 o) := by
  obtain ⟨-, -, -, -, -, -, ⟨h0, h1⟩, -⟩ := block_indices t
  unfold iblk0
  rw [View.read_apply]
  show V c main_v14 _ = V c main_v14 _
  congr 1
  funext a
  apply Fin.ext
  match a with
  | ⟨0, _⟩ => show win0_6.index t (0 : Fin 2) * 1 + 1 * 0 = 0; rw [h0]
  | ⟨1, _⟩ => show win0_6.index t (1 : Fin 2) * 128 + 1 * o.val = o.val; rw [h1]; omega

/-! ## From blocks to the array -/

/-- The messages as one function of the seven arrays the launch finds: entry (e, o) is the edge's message at
    column o, from row e of the three edge operands, column o of the three weight blocks and of the bias. -/
def msgArr : S500000x128.Idx → EReal := fun i =>
  Cert.Spec.msgAt (fun k => (V c main_v10 : S500000x128.Idx → EReal) (ix2 (i 0 : Fin 500000) k))
    (fun k => (V c main_arg3 : S500000x32.Idx → EReal) (ix2 (i 0 : Fin 500000) k))
    (fun k => (V c main_arg4 : S500000x32.Idx → EReal) (ix2 (i 0 : Fin 500000) k))
    (fun k => (V c main_v11 : S128x128.Idx → EReal) (ix2 k (i 1 : Fin 128)))
    (fun k => (V c main_v12 : S32x128.Idx → EReal) (ix2 k (i 1 : Fin 128)))
    (fun k => (V c main_v13 : S32x128.Idx → EReal) (ix2 k (i 1 : Fin 128)))
    ((V c main_v14 : S1x128.Idx → EReal) (ix2 0 (i 1 : Fin 128)))

/-- What point t writes back is row-block t of `msgArr`. -/
theorem written_back (t : Fin cfg0.N) :
    (dat0 (F := Ideal) V c).flushed 7 t = ((cfg0.win 7).blk t).view.read (Elt Ideal) (msgArr V c) := by
  show (cfg0.win 7).cut (grid0.coords t) ((dat0 V c).after 7 t) = _
  rw [after0_7]
  unfold out0_7
  rw [View.canon_unit_zero zero_offsets]
  simp only [View.ld_unit_zero (S := S5000x128) zero_offsets, View.ld_unit_zero (S := S5000x32) zero_offsets,
    View.ld_unit_zero (S := S128x128) zero_offsets, View.ld_unit_zero (S := S32x128) zero_offsets, View.ld_unit_zero (S := S1x128) zero_offsets]
  funext j
  obtain ⟨r, o, rfl⟩ : ∃ (r : Fin 5000) (o : Fin 128), j = ix2 r o := ⟨j 0, j 1, eq_ix2 j⟩
  have hN : grid0.N = 100 := N_0
  have ht : t.val < 100 := hN ▸ t.isLt
  obtain ⟨-, -, -, -, -, -, -, ⟨h0, h1⟩⟩ := block_indices t
  have hemb : ((cfg0.win 7).blk t).view.emb (ix2 r o)
      = (ix2 (⟨t.val * 5000 + r.val, by omega⟩ : Fin 500000) o : S500000x128.Idx) := by
    funext a
    apply Fin.ext
    match a with
    | ⟨0, _⟩ => show win0_7.index t (0 : Fin 2) * 5000 + 1 * r.val = t.val * 5000 + r.val; rw [h0]; omega
    | ⟨1, _⟩ => show win0_7.index t (1 : Fin 2) * 128 + 1 * o.val = o.val; rw [h1]; omega
  show k0_pay1 (F := Ideal) (iblk0 V c 0 t) (iblk0 V c 1 t) (iblk0 V c 2 t) (iblk0 V c 3 t) (iblk0 V c 4 t) (iblk0 V c 5 t)
      (iblk0 V c 6 t) (ix2 r o) = msgArr V c (((cfg0.win 7).blk t).view.emb (ix2 r o))
  refine (pay_entry (iblk0 V c 0 t) (iblk0 V c 1 t) (iblk0 V c 2 t) (iblk0 V c 3 t) (iblk0 V c 4 t) (iblk0 V c 5 t)
      (iblk0 V c 6 t) r o).trans ?_
  refine Eq.trans ?_ (congrArg (msgArr V c) hemb).symm
  show Cert.Spec.msgAt _ _ _ _ _ _ _ = Cert.Spec.msgAt _ _ _ _ _ _ _
  congr 1
  · funext k; exact blk0_apply V c t r k _ rfl
  · funext k; exact blk1_apply V c t r k _ rfl
  · funext k; exact blk2_apply V c t r k _ rfl
  · funext k; exact blk3_apply V c t k o
  · funext k; exact blk4_apply V c t k o
  · funext k; exact blk5_apply V c t k o
  · exact blk6_apply V c t o

/-- An index of the array is in point t's block iff each coordinate is in the block's range on its axis. -/
theorem mem_rowBlock (t : Fin cfg0.N) (i : S500000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v15).slice (win0_7.rect t)).set ↔ _
  rw [View.set_slice_whole, Rect.mem_set_unit]
  exact Iff.rfl

/-- Every index of the array is in some point's block: row e is in row-block e / 5000. -/
theorem rowBlocks_cover (i : S500000x128.Idx) :
    ∃ t : Fin cfg0.N, (cfg0.win 7).flush t = true ∧ i ∈ ((cfg0.win 7).blk t).view.set := by
  have hi0 : (i 0).val < 500000 := idx2_lt0 i
  have hi1 : (i 1).val < 128 := idx2_lt1 i
  have hN : grid0.N = 100 := N_0
  have hlt : (i 0).val / 5000 < grid0.N := by rw [hN]; omega
  refine ⟨⟨(i 0).val / 5000, hlt⟩, flush0_7 _, ?_⟩
  rw [mem_rowBlock]
  obtain ⟨-, -, -, -, -, -, -, ⟨h0, h1⟩⟩ := block_indices ⟨(i 0).val / 5000, hlt⟩
  intro a
  match a with
  | ⟨0, _⟩ =>
    show win0_7.index ⟨(i 0).val / 5000, hlt⟩ (0 : Fin 2) * 5000 ≤ (i 0).val
      ∧ (i 0).val < win0_7.index ⟨(i 0).val / 5000, hlt⟩ (0 : Fin 2) * 5000 + 5000
    rw [h0]; show (i 0).val / 5000 * 5000 ≤ (i 0).val ∧ (i 0).val < (i 0).val / 5000 * 5000 + 5000; omega
  | ⟨1, _⟩ =>
    show win0_7.index ⟨(i 0).val / 5000, hlt⟩ (1 : Fin 2) * 128 ≤ (i 1).val
      ∧ (i 1).val < win0_7.index ⟨(i 0).val / 5000, hlt⟩ (1 : Fin 2) * 128 + 128
    rw [h1]; omega

/-- So the launch leaves `msgArr` in its output array. -/
theorem arr_eq : (dat0 (F := Ideal) V c).arrAt 7 cfg0.N = msgArr V c :=
  (dat0 (F := Ideal) V c).arrAt_eq_of_cover 7 (msgArr V c) (fun t _ => written_back V c t) rowBlocks_cover

end Blocks

/-- The launch's output array, entry by entry. -/
theorem arr_entry (V : (c : Dev nD) → (b : Ref sig .tc) → Buf (Elt Ideal) ((c : Thread nD τ).loc b)) (c : Dev nD)
    (e : Fin 500000) (o : Fin 128) :
    ((dat0 (F := Ideal) V c).arrAt 7 cfg0.N : S500000x128.Idx → EReal) (ix2 e o)
      = Cert.Spec.msgAt (fun k => (V c main_v10 : S500000x128.Idx → EReal) (ix2 e k))
          (fun k => (V c main_arg3 : S500000x32.Idx → EReal) (ix2 e k))
          (fun k => (V c main_arg4 : S500000x32.Idx → EReal) (ix2 e k))
          (fun k => (V c main_v11 : S128x128.Idx → EReal) (ix2 k o))
          (fun k => (V c main_v12 : S32x128.Idx → EReal) (ix2 k o))
          (fun k => (V c main_v13 : S32x128.Idx → EReal) (ix2 k o))
          ((V c main_v14 : S1x128.Idx → EReal) (ix2 0 o)) :=
  congrFun (arr_eq V c) (ix2 e o)

end Cert.KernelIdeal.MsgValue
end
-- ==== Proof.LibKeepDims.lean ====
/-
  Two keep-dimension layout steps read at an index, for any extents.

  A reduction that keeps its reduced axis (a row sum kept as a column) is printed as a vector [a] viewed as a column
  [a, 1], and its result is spread back along the rows by a broadcast [a, 1] → [a, b]. A row-major view keeps an
  element's position, and position i of the vector is position i · 1 + 0 of the column, so the column reads the vector's
  entry i at (i, 0); the broadcast repeats the column's entry of row p at every (p, c).
-/
import Idealize.ShloMosaic.Lib.ValueIdx
import Idealize.ShloMosaic.Lib.Pipeline.Value

namespace Cert.Lib.KeepDims

open Idealize.ShloMosaic Idealize.ShloMosaic.ValueIdx

/-- A vector `[a]` viewed as a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepDims
-- ==== Proof.NodePay.lean ====
/-
  The node launch's arithmetic on one block, entry by entry, on the extended reals.

  The body loads a block of 5000 aggregated rows s, the matching block of boundary rows d, the 128 × 128 weight W and
  the three rows b (bias), g (gain), e (offset), and computes for every row r and column o

      y(r, o) = ∑ k, (s(r, k) + d(r, k)) · W(k, o) + b(o),
      m(r)    = (∑ o, y(r, o)) / 128,
      v(r)    = (∑ o, (y(r, o) − m(r)) · (y(r, o) − m(r))) / 128,
      out(r, o) = max((y(r, o) − m(r)) · rsqrt(v(r) + ε) · g(o) + e(o), 0).

  The matrix product is a product into the zero accumulator (at the ideal values the plain sum over the contraction
  index; the narrowing of its operands is the identity). A row sum is a reduction along the columns started from the
  zero word (whose value is 0), kept as a column [5000, 1] and spread back along the rows; so every row statistic at
  (r, o) depends on row r only. The three literals are the specification's words.
-/
import proofs.«110367_j58823872086496_2_alg».proof.Proof.Gen.KernelIdeal.Skeleton
import proofs.«110367_j58823872086496_2_alg».proof.Proof.Spec
import proofs.«110367_j58823872086496_2_alg».proof.Proof.LibPlainDot
import proofs.«110367_j58823872086496_2_alg».proof.Proof.LibKeepDims
import Idealize.ShloMosaic.Lib.ValueIdx
import Idealize.ShloMosaic.Lib.Pipeline.Value
import Idealize.ShloMosaic.Lib.ValueLayout
import Idealize.ShloMosaic.PureOps.Ideal.Laws

noncomputable section
open Idealize.ShloMosaic Idealize.ShloMosaic.TcCoe Idealize.ShloMosaic.ValueIdx Idealize.SL.Sem
open scoped BigOperators

namespace Cert.KernelIdeal.NodeValue
open Cert.KernelIdeal Cert.KernelIdeal.Gen

/-! ## The body's stages as functions of the loaded blocks -/

/-- The linear layer on the block: (s + d) · W into the zero accumulator, plus the bias row spread over the rows. -/
def linV (x0 x1 : Vec Ideal S5000x128 .f32) (x2 : Vec Ideal S128x128 .f32) (x3 : Vec Ideal S1x128 .f32) :
    FVec Ideal S5000x128 .f32 :=
  addf (matmul dot_S5000x128_S128x128_S5000x128_1_0_0_1_n_n none
      (truncf .bf16 (addf (shapeCast S5000x128 x0 shapeCasts_S5000x128_S5000x128) x1) bitsLt_bf16_f32)
      (truncf .bf16 x2 bitsLt_bf16_f32) (constant S5000x128 .f32 0x00000000#32))
    (broadcastTo S5000x128 (shapeCast S1x128 x3 shapeCasts_S1x128_S1x128) broadcasts_S1x128_S5000x128)

/-- The mean of each row of a block, kept as a column: the row sum divided by the literal 128. -/
def meanV (y : FVec Ideal S5000x128 .f32) : FVec Ideal S5000x1 .f32 :=
  divf (shapeCast S5000x1 (multiReduction .add [1] S5000 y 0x00000000#32 reduces_S5000x128_S5000 (.inl rfl) rfl)
      shapeCasts_S5000_S5000x1)
    (broadcast S5000x1 (Scalar.ofBits .f32 0x43000000#32))

/-- A block with each row's mean taken off. -/
def cenV (y : FVec Ideal S5000x128 .f32) : FVec Ideal S5000x128 .f32 :=
  subf y (broadcastTo S5000x128 (meanV y) broadcasts_S5000x1_S5000x128)

/-- The body's result is these stages composed (the printed bindings substituted). -/
theorem pay_eq (x0 x1 : Vec Ideal S5000x128 .f32) (x2 : Vec Ideal S128x128 .f32) (x3 x4 x5 : Vec Ideal S1x128 .f32) :
    k1_pay1 (F := Ideal) x0 x1 x2 x3 x4 x5
      = maximumf (addf (mulf (mulf (cenV (linV x0 x1 x2 x3))
            (broadcastTo S5000x128 (rsqrt (addf (meanV (mulf (cenV (linV x0 x1 x2 x3)) (cenV (linV x0 x1 x2 x3))))
              (broadcast S5000x1 (Scalar.ofBits .f32 0x3727C5AC#32)))) broadcasts_S5000x1_S5000x128))
            (broadcastTo S5000x128 (shapeCast S1x128 x4 shapeCasts_S1x128_S1x128) broadcasts_S1x128_S5000x128))
            (broadcastTo S5000x128 (shapeCast S1x128 x5 shapeCasts_S1x128_S1x128) broadcasts_S1x128_S5000x128))
          (broadcast S5000x128 (Scalar.ofBits .f32 0x00000000#32)) := rfl

/-! ## Each stage at an entry -/

/-- The product into the zero accumulator at (r, o): the sum over the contraction index of the operands' products. -/
theorem matmul_entry (L : FVec Ideal S5000x128 .bf16) (R : FVec Ideal S128x128 .bf16) (r : Fin 5000) (o : Fin 128) :
    matmul dot_S5000x128_S128x128_S5000x128_1_0_0_1_n_n none L R (constant S5000x128 .f32 0x00000000#32) (ix2 r o)
      = ∑ k : Fin 128, L (ix2 r k) * R (ix2 k o) :=
  (Ideal.matmul_constant_zero_apply (DotDims.plain 5000 128 128) none L R (ix2 r o)).trans
    (Cert.LibPlainDot.sum_contr (n := 5000) (a := 128) (b := 128) L R r o)

/-- A row [1, 128] (through its trivial reshaping) spread over the 5000 rows reads, at (r, o), the row at o. -/
theorem row_entry (x : Vec Ideal S1x128 .f32) (r : Fin 5000) (o : Fin 128) :
    broadcastTo S5000x128 (shapeCast S1x128 x shapeCasts_S1x128_S1x128) broadcasts_S1x128_S5000x128 (ix2 r o)
      = x (ix2 0 o) := by
  rw [shapeCast_self]
  exact broadcastTo_1b_ab_apply x broadcasts_S1x128_S5000x128 r o

/-- The linear layer at (r, o) is the specification's, on row r of s + d. -/
theorem linV_entry (x0 x1 : Vec Ideal S5000x128 .f32) (x2 : Vec Ideal S128x128 .f32) (x3 : Vec Ideal S1x128 .f32)
    (r : Fin 5000) (o : Fin 128) :
    linV x0 x1 x2 x3 (ix2 r o)
      = Cert.Spec.lin (Cert.Spec.addRow (fun k => x0 (ix2 r k)) (fun k => x1 (ix2 r k)))
          (fun k o' => x2 (ix2 k o')) (fun o' => x3 (ix2 0 o')) o := by
  unfold linV Cert.Spec.lin Cert.Spec.addRow
  rw [addf_apply, matmul_entry, row_entry, shapeCast_self]
  rfl

/-- A row sum along the columns started from the zero word, at row r: the plain sum of the row's 128 entries. -/
theorem rowsum_entry (y : FVec Ideal S5000x128 .f32) (r : Fin 5000) :
    multiReduction .add [1] S5000 y 0x00000000#32 reduces_S5000x128_S5000 (.inl rfl) rfl (ix1 r)
      = ∑ o : Fin 128, y (ix2 r o) := by
  refine (Ideal.multiReduction_add_single y 0x00000000#32 reduces_S5000x128_S5000 (.inl rfl) rfl (ix1 r)).trans ?_
  refine Finset.sum_congr rfl fun o _ => congrArg y ?_
  funext c
  apply Fin.ext
  match c with
  | ⟨0, _⟩ => rfl
  | ⟨1, _⟩ => rfl

/-- The kept column of row means at (r, 0) is the specification's mean of row r. -/
theorem meanV_entry (y : FVec Ideal S5000x128 .f32) (r : Fin 5000) (u : Fin 1) :
    meanV y (ix2 r u) = Cert.Spec.mean (fun o => y (ix2 r o)) := by
  unfold meanV Cert.Spec.mean Cert.Spec.cols
  rw [divf_apply, Cert.Lib.KeepDims.shapeCast_a_a1_apply, rowsum_entry]
  rfl

/-- A kept column [5000, 1] spread along the rows reads, at (r, o), the column at row r. -/
theorem col_entry (v : FVec Ideal S5000x1 .f32) (r : Fin 5000) (o : Fin 128) :
    broadcastTo S5000x128 v broadcasts_S5000x1_S5000x128 (ix2 r o) = v (ix2 r (0 : Fin 1)) :=
  Cert.Lib.KeepDims.broadcastTo_a1_ab_apply v broadcasts_S5000x1_S5000x128 r o

/-- A centred block at (r, o): the entry minus its row's mean. -/
theorem cenV_entry (y : FVec Ideal S5000x128 .f32) (r : Fin 5000) (o : Fin 128) :
    cenV y (ix2 r o) = y (ix2 r o) - Cert.Spec.mean (fun o' => y (ix2 r o')) := by
  unfold cenV
  rw [subf_apply, col_entry, meanV_entry]

/-! ## The body's result at an entry -/

/-- The node launch's arithmetic at row r, column o of a block: the specification's value on row r of the two row
    blocks, the whole weight and the three parameter rows. -/
theorem pay_entry (x0 x1 : Vec Ideal S5000x128 .f32) (x2 : Vec Ideal S128x128 .f32) (x3 x4 x5 : Vec Ideal S1x128 .f32)
    (r : Fin 5000) (o : Fin 128) :
    k1_pay1 (F := Ideal) x0 x1 x2 x3 x4 x5 (ix2 r o)
      = Cert.Spec.nodeAt (Cert.Spec.addRow (fun k => x0 (ix2 r k)) (fun k => x1 (ix2 r k)))
          (fun k o' => x2 (ix2 k o')) (fun o' => x3 (ix2 0 o')) (fun o' => x4 (ix2 0 o')) (fun o' => x5 (ix2 0 o')) o := by
  have hlin : (fun o' => linV x0 x1 x2 x3 (ix2 r o'))
      = Cert.Spec.lin (Cert.Spec.addRow (fun k => x0 (ix2 r k)) (fun k => x1 (ix2 r k)))
          (fun k o' => x2 (ix2 k o')) (fun o' => x3 (ix2 0 o')) :=
    funext fun o' => linV_entry x0 x1 x2 x3 r o'
  have hcen : ∀ o' : Fin 128, cenV (linV x0 x1 x2 x3) (ix2 r o')
      = Cert.Spec.lin (Cert.Spec.addRow (fun k => x0 (ix2 r k)) (fun k => x1 (ix2 r k)))
            (fun k o' => x2 (ix2 k o')) (fun o' => x3 (ix2 0 o')) o'
          - Cert.Spec.mean (Cert.Spec.lin (Cert.Spec.addRow (fun k => x0 (ix2 r k)) (fun k => x1 (ix2 r k)))
            (fun k o' => x2 (ix2 k o')) (fun o' => x3 (ix2 0 o'))) := fun o' => by
    rw [cenV_entry, hlin, linV_entry]
  have hvar : meanV (mulf (cenV (linV x0 x1 x2 x3)) (cenV (linV x0 x1 x2 x3))) (ix2 r (0 : Fin 1))
      = Cert.Spec.mean (fun o' =>
          (Cert.Spec.lin (Cert.Spec.addRow (fun k => x0 (ix2 r k)) (fun k => x1 (ix2 r k)))
              (fun k o' => x2 (ix2 k o')) (fun o' => x3 (ix2 0 o')) o'
            - Cert.Spec.mean (Cert.Spec.lin (Cert.Spec.addRow (fun k => x0 (ix2 r k)) (fun k => x1 (ix2 r k)))
              (fun k o' => x2 (ix2 k o')) (fun o' => x3 (ix2 0 o'))))
          * (Cert.Spec.lin (Cert.Spec.addRow (fun k => x0 (ix2 r k)) (fun k => x1 (ix2 r k)))
              (fun k o' => x2 (ix2 k o')) (fun o' => x3 (ix2 0 o')) o'
            - Cert.Spec.mean (Cert.Spec.lin (Cert.Spec.addRow (fun k => x0 (ix2 r k)) (fun k => x1 (ix2 r k)))
              (fun k o' => x2 (ix2 k o')) (fun o' => x3 (ix2 0 o'))))) := by
    rw [meanV_entry]
    exact congrArg Cert.Spec.mean (funext fun o' => by rw [mulf_apply, hcen])
  rw [pay_eq]
  unfold Cert.Spec.nodeAt Cert.Spec.eps Cert.Spec.zero
  rw [maximumf_apply, addf_apply, mulf_apply, mulf_apply, row_entry, row_entry, col_entry, hcen]
  show max (_ * Ideal.rsqrt (meanV _ (ix2 r (0 : Fin 1)) + _) * _ + _) _ = _
  rw [hvar]
  rfl

end Cert.KernelIdeal.NodeValue
end
-- ==== Proof.NodeValue.lean ====
/-
  The node launch's output array, entry by entry.

  The launch runs over 20 points; point t stages rows 5000·t … 5000·t + 4999 of the aggregated array and of the
  boundary array (all 128 columns), the whole weight and the three parameter rows, and writes back the same rows of the
  output. An element of a block sits in its array, on each axis, at the block index times the block's extent plus its
  coordinate inside the block; for the row-blocked arrays that is row 5000·t + r, for the whole-array windows the
  coordinate itself. Since the body's value at (r, o) depends on row r of the two row blocks only, what point t writes
  back is block t of ONE function of the arrays — the specification's value of row p at column o — and the 20 blocks
  cover the 100000 rows (row p lies in block p / 5000), so the array ends holding that function.
-/
import proofs.«110367_j58823872086496_2_alg».proof.Proof.Gen.KernelIdeal.Frame
import proofs.«110367_j58823872086496_2_alg».proof.Proof.Spec
import proofs.«110367_j58823872086496_2_alg».proof.Proof.NodePay
import Idealize.ShloMosaic.Lib.ValueIdx
import Idealize.ShloMosaic.Lib.Pipeline.Value
import Idealize.ShloMosaic.Lib.ValueLayout
import Idealize.ShloMosaic.PureOps.Ideal.Laws

noncomputable section
open Idealize.ShloMosaic Idealize.ShloMosaic.TcCoe Idealize.ShloMosaic.ValueIdx Idealize.SL.Sem
open Idealize.ShloMosaic.Pipeline (Dat)
open scoped BigOperators

namespace Cert.KernelIdeal.NodeValue
open Cert.KernelIdeal Cert.KernelIdeal.Gen

variable (V : (c : Dev nD) → (b : Ref sig .tc) → Buf (Elt Ideal) ((c : Thread nD τ).loc b))

/-! ## The whole-array function -/

/-- The output array as one function of the six arrays: at (p, o) the specification's value of row p of the aggregated
    and boundary arrays at column o. -/
def nodeArr (a0 a1 : S100000x128.Idx → EReal) (a2 : S128x128.Idx → EReal) (a3 a4 a5 : S1x128.Idx → EReal) :
    S100000x128.Idx → EReal := fun i =>
  Cert.Spec.nodeAt (Cert.Spec.addRow (fun k => a0 (ix2 (i 0) k)) (fun k => a1 (ix2 (i 0) k)))
    (fun k o' => a2 (ix2 k o')) (fun o' => a3 (ix2 0 o')) (fun o' => a4 (ix2 0 o')) (fun o' => a5 (ix2 0 o')) (i 1)

/-- The body's value at (r, o) of blocks that agree with the arrays — row r of the two row blocks with row p of their
    arrays, the other four entry by entry — is the whole-array function at (p, o). -/
theorem point_entry (x0 x1 : Vec Ideal S5000x128 .f32) (x2 : Vec Ideal S128x128 .f32) (x3 x4 x5 : Vec Ideal S1x128 .f32)
    (a0 a1 : S100000x128.Idx → EReal) (a2 : S128x128.Idx → EReal) (a3 a4 a5 : S1x128.Idx → EReal)
    (r : Fin 5000) (o : Fin 128) (p : Fin 100000)
    (h0 : ∀ k : Fin 128, x0 (ix2 r k) = a0 (ix2 p k)) (h1 : ∀ k : Fin 128, x1 (ix2 r k) = a1 (ix2 p k))
    (h2 : ∀ (k o' : Fin 128), x2 (ix2 k o') = a2 (ix2 k o'))
    (h3 : ∀ o' : Fin 128, x3 (ix2 0 o') = a3 (ix2 0 o')) (h4 : ∀ o' : Fin 128, x4 (ix2 0 o') = a4 (ix2 0 o'))
    (h5 : ∀ o' : Fin 128, x5 (ix2 0 o') = a5 (ix2 0 o')) :
    k1_pay1 (F := Ideal) x0 x1 x2 x3 x4 x5 (ix2 r o) = nodeArr a0 a1 a2 a3 a4 a5 (ix2 p o) := by
  rw [pay_entry, show (fun k => x0 (ix2 r k)) = fun k => a0 (ix2 p k) from funext h0,
    show (fun k => x1 (ix2 r k)) = fun k => a1 (ix2 p k) from funext h1,
    show (fun k o' => x2 (ix2 k o')) = fun k o' => a2 (ix2 k o') from funext fun k => funext fun o' => h2 k o',
    show (fun o' => x3 (ix2 0 o')) = fun o' => a3 (ix2 0 o') from funext h3,
    show (fun o' => x4 (ix2 0 o')) = fun o' => a4 (ix2 0 o') from funext h4,
    show (fun o' => x5 (ix2 0 o')) = fun o' => a5 (ix2 0 o') from funext h5]
  rfl

/-! ## The index maps over the grid, and the blocks as rows of their arrays -/

theorem hz : (![0, 0] : Fin 2 → Nat) = fun _ => 0 := funext fun a => by fin_cases a <;> rfl

/-- The printed index maps at every point: the two row-blocked inputs and the output take block (t, 0), the weight and
    the three parameter rows block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row r of the aggregated array's block at point t is row 5000·t + r of the array. -/
theorem blk0_entry (c : Dev nD) (t : Fin cfg1.N) (r : Fin 5000) (k : Fin 128) (p : Fin 100000)
    (hp : p.val = t.val * 5000 + r.val) :
    (iblk1 V c 0 t : S5000x128.Idx → EReal) (ix2 r k) = (V c main_v18 : S100000x128.Idx → EReal) (ix2 p k) := by
  obtain ⟨e0, e1, -⟩ := idx_facts t
  show (V c main_v18 : S100000x128.Idx → EReal) (((cfg1.win 0).blk t).view.emb (ix2 r k)) = _
  refine congrArg _ (funext fun a => Fin.ext ?_)
  match a with
  | ⟨0, _⟩ => show win1_0.index t (0 : Fin 2) * 5000 + 1 * r.val = p.val; rw [e0, hp]; omega
  | ⟨1, _⟩ => show win1_0.index t (1 : Fin 2) * 128 + 1 * k.val = k.val; rw [e1]; omega

/-- Row r of the boundary array's block at point t is row 5000·t + r of the array. -/
theorem blk1_entry (c : Dev nD) (t : Fin cfg1.N) (r : Fin 5000) (k : Fin 128) (p : Fin 100000)
    (hp : p.val = t.val * 5000 + r.val) :
    (iblk1 V c 1 t : S5000x128.Idx → EReal) (ix2 r k) = (V c main_arg5 : S100000x128.Idx → EReal) (ix2 p k) := by
  obtain ⟨-, -, e0, e1, -⟩ := idx_facts t
  show (V c main_arg5 : S100000x128.Idx → EReal) (((cfg1.win 1).blk t).view.emb (ix2 r k)) = _
  refine congrArg _ (funext fun a => Fin.ext ?_)
  match a with
  | ⟨0, _⟩ => show win1_1.index t (0 : Fin 2) * 5000 + 1 * r.val = p.val; rw [e0, hp]; omega
  | ⟨1, _⟩ => show win1_1.index t (1 : Fin 2) * 128 + 1 * k.val = k.val; rw [e1]; omega

/-- The weight's block at every point is the whole weight. -/
theorem blk2_entry (c : Dev nD) (t : Fin cfg1.N) (k o : Fin 128) :
    (iblk1 V c 2 t : S128x128.Idx → EReal) (ix2 k o) = (V c main_arg8 : S128x128.Idx → EReal) (ix2 k o) := by
  obtain ⟨-, -, -, -, e0, e1, -⟩ := idx_facts t
  show (V c main_arg8 : S128x128.Idx → EReal) (((cfg1.win 2).blk t).view.emb (ix2 k o)) = _
  refine congrArg _ (funext fun a => Fin.ext ?_)
  match a with
  | ⟨0, _⟩ => show win1_2.index t (0 : Fin 2) * 128 + 1 * k.val = k.val; rw [e0]; omega
  | ⟨1, _⟩ => show win1_2.index t (1 : Fin 2) * 128 + 1 * o.val = o.val; rw [e1]; omega

/-- The bias row's block at every point is the whole row. -/
theorem blk3_entry (c : Dev nD) (t : Fin cfg1.N) (o : Fin 128) :
    (iblk1 V c 3 t : S1x128.Idx → EReal) (ix2 0 o) = (V c main_v19 : S1x128.Idx → EReal) (ix2 0 o) := by
  obtain ⟨-, -, -, -, -, -, e0, e1, -⟩ := idx_facts t
  show (V c main_v19 : S1x128.Idx → EReal) (((cfg1.win 3).blk t).view.emb (ix2 0 o)) = _
  refine congrArg _ (funext fun a => Fin.ext ?_)
  match a with
  | ⟨0, _⟩ => show win1_3.index t (0 : Fin 2) * 1 + 1 * 0 = 0; rw [e0]
  | ⟨1, _⟩ => show win1_3.index t (1 : Fin 2) * 128 + 1 * o.val = o.val; rw [e1]; omega

/-- The gain row's block at every point is the whole row. -/
theorem blk4_entry (c : Dev nD) (t : Fin cfg1.N) (o : Fin 128) :
    (iblk1 V c 4 t : S1x128.Idx → EReal) (ix2 0 o) = (V c main_v20 : S1x128.Idx → EReal) (ix2 0 o) := by
  obtain ⟨-, -, -, -, -, -, -, -, e0, e1, -⟩ := idx_facts t
  show (V c main_v20 : S1x128.Idx → EReal) (((cfg1.win 4).blk t).view.emb (ix2 0 o)) = _
  refine congrArg _ (funext fun a => Fin.ext ?_)
  match a with
  | ⟨0, _⟩ => show win1_4.index t (0 : Fin 2) * 1 + 1 * 0 = 0; rw [e0]
  | ⟨1, _⟩ => show win1_4.index t (1 : Fin 2) * 128 + 1 * o.val = o.val; rw [e1]; omega

/-- The offset row's block at every point is the whole row. -/
theorem blk5_entry (c : Dev nD) (t : Fin cfg1.N) (o : Fin 128) :
    (iblk1 V c 5 t : S1x128.Idx → EReal) (ix2 0 o) = (V c main_v21 : S1x128.Idx → EReal) (ix2 0 o) := by
  obtain ⟨-, -, -, -, -, -, -, -, -, -, e0, e1, -⟩ := idx_facts t
  show (V c main_v21 : S1x128.Idx → EReal) (((cfg1.win 5).blk t).view.emb (ix2 0 o)) = _
  refine congrArg _ (funext fun a => Fin.ext ?_)
  match a with
  | ⟨0, _⟩ => show win1_5.index t (0 : Fin 2) * 1 + 1 * 0 = 0; rw [e0]
  | ⟨1, _⟩ => show win1_5.index t (1 : Fin 2) * 128 + 1 * o.val = o.val; rw [e1]; omega

/-! ## What a point writes back, the cover, and the array -/

/-- What point t writes back is block t of the whole-array function of the arrays as the launch finds them. -/
theorem flushed_eq (c : Dev nD) (t : Fin cfg1.N) :
    (dat1 (F := Ideal) V c).flushed 6 t
      = ((cfg1.win 6).blk t).view.read (Elt Ideal)
          (nodeArr (V c main_v18) (V c main_arg5) (V c main_arg8) (V c main_v19) (V c main_v20) (V c main_v21)) := by
  show (cfg1.win 6).cut (grid1.coords t) ((dat1 (F := Ideal) V c).after 6 t) = _
  rw [after1_6]
  unfold out1_6
  rw [View.canon_unit_zero hz]
  simp only [View.ld_unit_zero (S := S5000x128) hz, View.ld_unit_zero (S := S128x128) hz,
    View.ld_unit_zero (S := S1x128) hz]
  funext j
  have hr : (j 0).val < 5000 := (j 0).isLt
  have ho : (j 1).val < 128 := (j 1).isLt
  have ht : t.val < 20 := lt_of_lt_of_eq t.isLt N_1
  obtain ⟨-, -, -, -, -, -, -, -, -, -, -, -, e0, e1⟩ := idx_facts t
  have ey : (cfg1.win 6).xinj (grid1.coords t) j = ix2 (⟨(j 0).val, hr⟩ : Fin 5000) (⟨(j 1).val, ho⟩ : Fin 128) :=
    funext fun a => by
      match a with
      | ⟨0, _⟩ => rfl
      | ⟨1, _⟩ => rfl
  have ei : ((cfg1.win 6).blk t).view.emb j
      = ix2 (⟨t.val * 5000 + (j 0).val, by omega⟩ : Fin 100000) (⟨(j 1).val, ho⟩ : Fin 128) :=
    funext fun a => Fin.ext (by
      match a with
      | ⟨0, _⟩ => show win1_6.index t (0 : Fin 2) * 5000 + 1 * (j 0).val = t.val * 5000 + (j 0).val; rw [e0]; omega
      | ⟨1, _⟩ => show win1_6.index t (1 : Fin 2) * 128 + 1 * (j 1).val = (j 1).val; rw [e1]; omega)
  show k1_pay1 (F := Ideal) _ _ _ _ _ _ ((cfg1.win 6).xinj (grid1.coords t) j)
    = nodeArr _ _ _ _ _ _ (((cfg1.win 6).blk t).view.emb j)
  rw [ey, ei]
  exact point_entry (iblk1 V c 0 t) (iblk1 V c 1 t) (iblk1 V c 2 t) (iblk1 V c 3 t) (iblk1 V c 4 t) (iblk1 V c 5 t)
    (V c main_v18) (V c main_arg5) (V c main_arg8) (V c main_v19) (V c main_v20) (V c main_v21)
    ⟨(j 0).val, hr⟩ ⟨(j 1).val, ho⟩ ⟨t.val * 5000 + (j 0).val, by omega⟩
    (fun k => blk0_entry V c t _ k _ rfl) (fun k => blk1_entry V c t _ k _ rfl)
    (fun k o' => blk2_entry V c t k o') (fun o' => blk3_entry V c t o') (fun o' => blk4_entry V c t o')
    (fun o' => blk5_entry V c t o')

/-- An index of the output array is in point t's block iff each coordinate is in the block's range on its axis. -/
theorem mem_blk (t : Fin cfg1.N) (i : S100000x128.Idx) :
    i ∈ ((cfg1.win 6).blk t).view.set
      ↔ ∀ a : Fin 2, win1_6.index t a * S5000x128.size a ≤ (i a).val
          ∧ (i a).val < win1_6.index t a * S5000x128.size a + S5000x128.size a := by
  show i ∈ ((View.whole main_v22).slice (win1_6.rect t)).set ↔ _
  rw [View.set_slice_whole, Rect.mem_set_unit]
  exact Iff.rfl

/-- Every index of the output array is in some point's block: row p in the block of point p / 5000. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  have hq : (i 0).val / 5000 < cfg1.N := by rw [hN]; omega
  obtain ⟨-, -, -, -, -, -, -, -, -, -, -, -, e0, e1⟩ := idx_facts ⟨(i 0).val / 5000, hq⟩
  refine ⟨⟨(i 0).val / 5000, hq⟩, flush1_6 _, ?_⟩
  rw [mem_blk]
  intro a
  match a with
  | ⟨0, _⟩ =>
    show win1_6.index ⟨(i 0).val / 5000, hq⟩ (0 : Fin 2) * 5000 ≤ (i 0).val
      ∧ (i 0).val < win1_6.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win1_6.index ⟨(i 0).val / 5000, hq⟩ (1 : Fin 2) * 128 ≤ (i 1).val
      ∧ (i 1).val < win1_6.index ⟨(i 0).val / 5000, hq⟩ (1 : Fin 2) * 128 + 128
    rw [e1]
    omega

/-- The output array after the launch is the whole-array function of the arrays as the launch finds them. -/
theorem arr_eq (c : Dev nD) :
    (dat1 (F := Ideal) V c).arrAt 6 cfg1.N
      = nodeArr (V c main_v18) (V c main_arg5) (V c main_arg8) (V c main_v19) (V c main_v20) (V c main_v21) :=
  (dat1 (F := Ideal) V c).arrAt_eq_of_cover 6
    (nodeArr (V c main_v18) (V c main_arg5) (V c main_arg8) (V c main_v19) (V c main_v20) (V c main_v21))
    (fun t _ => flushed_eq V c t) cover

/-- The node launch's output array at row p, column o: the specification's value of row p of the aggregated and
    boundary arrays, the weight and the three parameter rows, at column o. -/
theorem arr_entry (V : (c : Dev nD) → (b : Ref sig .tc) → Buf (Elt Ideal) ((c : Thread nD τ).loc b)) (c : Dev nD)
    (p : Fin 100000) (o : Fin 128) :
    ((dat1 (F := Ideal) V c).arrAt 6 cfg1.N : S100000x128.Idx → EReal) (ix2 p o)
      = Cert.Spec.nodeAt
          (Cert.Spec.addRow (fun k => (V c main_v18 : S100000x128.Idx → EReal) (ix2 p k)) (fun k => (V c main_arg5 : S100000x128.Idx → EReal) (ix2 p k)))
          (fun k o' => (V c main_arg8 : S128x128.Idx → EReal) (ix2 k o'))
          (fun o' => (V c main_v19 : S1x128.Idx → EReal) (ix2 0 o'))
          (fun o' => (V c main_v20 : S1x128.Idx → EReal) (ix2 0 o'))
          (fun o' => (V c main_v21 : S1x128.Idx → EReal) (ix2 0 o')) o := by
  rw [arr_eq]
  rfl

end Cert.KernelIdeal.NodeValue
end
-- ==== Proof.RefValue.lean ====
/-
  The reference program read at one entry.

  An edge's message at output column o is the rectified sum of the 192-wide product of the concatenated row with the
  message weight's column o, plus the bias entry o. A node's output at column o is the layer normalisation of the linear
  layer's row: the row y = a·W + b of the aggregated row a, centred by its mean over the 128 columns, scaled by the
  reciprocal square root of the mean squared deviation plus the small constant, times the gain, plus the offset, rectified.
  The aggregated row and the concatenated row are left as they stand.
-/
import proofs.«110367_j58823872086496_2_alg».proof.Proof.Gen.ReferenceIdeal.Read
import proofs.«110367_j58823872086496_2_alg».proof.Proof.Spec
import Idealize.ShloMosaic.Lib.ValueIdx
import Idealize.ShloMosaic.Lib.Pipeline.Value
import Idealize.ShloMosaic.PureOps.Ideal.Laws

noncomputable section
open Cert.ReferenceIdeal Cert.ReferenceIdeal.Read Idealize.ShloMosaic Idealize.ShloMosaic.ValueIdx Idealize.SL.Sem
open scoped BigOperators

namespace Cert.ReferenceIdeal.RefValue

/-! ## The message -/

/-- The left operand of the 192-wide product at entry (e, o), term k: row e, column k. -/
theorem lidx10 (e : Fin 500000) (o : Fin 128) (k : Fin 192) : lidx_main_v10 (ix2 e o) k = ix2 e k :=
  funext fun a => Fin.ext (by match a with | ⟨0, _⟩ => rfl | ⟨1, _⟩ => rfl)
/-- The right operand of the 192-wide product at entry (e, o), term k: row k, column o. -/
theorem ridx10 (e : Fin 500000) (o : Fin 128) (k : Fin 192) : ridx_main_v10 (ix2 e o) k = ix2 k o :=
  funext fun a => Fin.ext (by match a with | ⟨0, _⟩ => rfl | ⟨1, _⟩ => rfl)
/-- The bias broadcast along the rows reads the bias at the column. -/
theorem idx11_12 (e : Fin 500000) (o : Fin 128) : idx_main_v11 (idx_main_v12 (ix2 e o)) = ix1 o :=
  funext fun a => Fin.ext (by match a with | ⟨0, _⟩ => rfl)

theorem msg_entry (x0 : (⟨S100000x128, .f32⟩ : BufTy).Contents (Elt Ideal)) (x2 : (⟨S2x500000, .i32⟩ : BufTy).Contents (Elt Ideal))
    (x3 x4 : (⟨S500000x32, .f32⟩ : BufTy).Contents (Elt Ideal))
    (x6 : (⟨S192x128, .f32⟩ : BufTy).Contents (Elt Ideal)) (x7 : (⟨S128, .f32⟩ : BufTy).Contents (Elt Ideal))
    (e : Fin 500000) (o : Fin 128) :
    val_main_v14 (F := Ideal) x0 x2 x3 x4 x6 x7 (ix2 e o)
      = max ((∑ k : Fin 192, val_main_v9 (F := Ideal) x0 x2 x3 x4 (ix2 e k) * x6 (ix2 k o)) + x7 (ix1 o)) Cert.Spec.zero := by
  rw [val_main_v14_apply, val_main_v13_apply, val_main_v10_apply, val_main_v12_apply, val_main_v11_apply,
    val_main_call0_v0_apply, val_main_call0_cst_apply, idx11_12]
  simp only [lidx10, ridx10, Ideal.maximumf_def, Ideal.addf_def, Ideal.ofBits_def]
  rfl

/-! ## The node tail -/

/-- The left operand of the 128-wide product at entry (p, o), term k: row p, column k. -/
theorem lidx23 (p : Fin 100000) (o : Fin 128) (k : Fin 128) : lidx_main_v23 (ix2 p o) k = ix2 p k :=
  funext fun a => Fin.ext (by match a with | ⟨0, _⟩ => rfl | ⟨1, _⟩ => rfl)
/-- The right operand of the 128-wide product at entry (p, o), term k: row k, column o. -/
theorem ridx23 (p : Fin 100000) (o : Fin 128) (k : Fin 128) : ridx_main_v23 (ix2 p o) k = ix2 k o :=
  funext fun a => Fin.ext (by match a with | ⟨0, _⟩ => rfl | ⟨1, _⟩ => rfl)
/-- The layer's bias broadcast along the rows reads the bias at the column. -/
theorem idx24_25 (p : Fin 100000) (o : Fin 128) : idx_main_v24 (idx_main_v25 (ix2 p o)) = ix1 o :=
  funext fun a => Fin.ext (by match a with | ⟨0, _⟩ => rfl)
/-- The gain broadcast along the rows reads the gain at the column. -/
theorem idx45_46 (p : Fin 100000) (o : Fin 128) : idx_main_v45 (idx_main_v46 (ix2 p o)) = ix1 o :=
  funext fun a => Fin.ext (by match a with | ⟨0, _⟩ => rfl)
/-- The offset broadcast along the rows reads the offset at the column. -/
theorem idx48_49 (p : Fin 100000) (o : Fin 128) : idx_main_v48 (idx_main_v49 (ix2 p o)) = ix1 o :=
  funext fun a => Fin.ext (by match a with | ⟨0, _⟩ => rfl)
/-- The column of row sums reads the row sum at the row. -/
theorem idx28 (p : Fin 100000) : idx_main_v28 (ix2 p (0 : Fin 1)) = ix1 p :=
  funext fun a => Fin.ext (by match a with | ⟨0, _⟩ => rfl)
theorem idx35 (p : Fin 100000) : idx_main_v35 (ix2 p (0 : Fin 1)) = ix1 p :=
  funext fun a => Fin.ext (by match a with | ⟨0, _⟩ => rfl)
/-- Term k of row p's sum is entry (p, k). -/
theorem idx27 (p : Fin 100000) (k : Fin 128) : idx_main_v27 (ix1 p) k = ix2 p k :=
  funext fun a => Fin.ext (by match a with | ⟨0, _⟩ => rfl | ⟨1, _⟩ => rfl)
theorem idx34 (p : Fin 100000) (k : Fin 128) : idx_main_v34 (ix1 p) k = ix2 p k :=
  funext fun a => Fin.ext (by match a with | ⟨0, _⟩ => rfl | ⟨1, _⟩ => rfl)
/-- A one-column array broadcast along the columns reads row p of the column. -/
theorem idx31 (p : Fin 100000) (o : Fin 128) : idx_main_v31 (ix2 p o) = ix2 p (0 : Fin 1) :=
  funext fun a => Fin.ext (by match a with | ⟨0, _⟩ => rfl | ⟨1, _⟩ => rfl)
theorem idx38 (p : Fin 100000) (o : Fin 128) : idx_main_v38 (ix2 p o) = ix2 p (0 : Fin 1) :=
  funext fun a => Fin.ext (by match a with | ⟨0, _⟩ => rfl | ⟨1, _⟩ => rfl)
theorem idx43 (p : Fin 100000) (o : Fin 128) : idx_main_v43 (ix2 p o) = ix2 p (0 : Fin 1) :=
  funext fun a => Fin.ext (by match a with | ⟨0, _⟩ => rfl | ⟨1, _⟩ => rfl)

/-- The linear layer's row: entry (p, o) is the aggregated row p against column o of the weight, plus the bias. -/
theorem y_entry (x0 : (⟨S100000x128, .f32⟩ : BufTy).Contents (Elt Ideal)) (x2 : (⟨S2x500000, .i32⟩ : BufTy).Contents (Elt Ideal))
    (x3 x4 : (⟨S500000x32, .f32⟩ : BufTy).Contents (Elt Ideal)) (x5 : (⟨S100000x128, .f32⟩ : BufTy).Contents (Elt Ideal))
    (x6 : (⟨S192x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (p : Fin 100000) (o : Fin 128) :
    val_main_v26 (F := Ideal) x0 x2 x3 x4 x5 x6 x7 x8 x9 (ix2 p o) = Cert.Spec.lin (fun k => val_main_v22 (F := Ideal) x0 x2 x3 x4 x5 x6 x7 (ix2 p k)) (fun k o' => x8 (ix2 k o')) (fun o' => x9 (ix1 o')) o := by
  rw [val_main_v26_apply, val_main_v23_apply, val_main_v25_apply, val_main_v24_apply, idx24_25]
  simp only [lidx23, ridx23, Ideal.addf_def]
  rfl

/-- The mean column: row p holds the mean of the linear layer's row p. -/
theorem mean_entry (x0 : (⟨S100000x128, .f32⟩ : BufTy).Contents (Elt Ideal)) (x2 : (⟨S2x500000, .i32⟩ : BufTy).Contents (Elt Ideal))
    (x3 x4 : (⟨S500000x32, .f32⟩ : BufTy).Contents (Elt Ideal)) (x5 : (⟨S100000x128, .f32⟩ : BufTy).Contents (Elt Ideal))
    (x6 : (⟨S192x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (p : Fin 100000) :
    val_main_v30 (F := Ideal) x0 x2 x3 x4 x5 x6 x7 x8 x9 (ix2 p (0 : Fin 1)) = Cert.Spec.mean (Cert.Spec.lin (fun k => val_main_v22 (F := Ideal) x0 x2 x3 x4 x5 x6 x7 (ix2 p k)) (fun k o' => x8 (ix2 k o')) (fun o' => x9 (ix1 o'))) := by
  rw [val_main_v30_apply, val_main_v28_apply, val_main_v29_apply, val_main_cst_2_apply, idx28, val_main_v27_apply,
    val_main_cst_1_apply]
  simp only [idx27, y_entry, Ideal.hostDivf_def, Ideal.ofBits_def, Ideal.ofBits_zero_f32, zero_add]
  rfl

/-- The centred row, as the variance reads it: entry (p, o) of the linear layer's row minus the row's mean. -/
theorem dev_entry (x0 : (⟨S100000x128, .f32⟩ : BufTy).Contents (Elt Ideal)) (x2 : (⟨S2x500000, .i32⟩ : BufTy).Contents (Elt Ideal))
    (x3 x4 : (⟨S500000x32, .f32⟩ : BufTy).Contents (Elt Ideal)) (x5 : (⟨S100000x128, .f32⟩ : BufTy).Contents (Elt Ideal))
    (x6 : (⟨S192x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (p : Fin 100000) (o : Fin 128) :
    val_main_v32 (F := Ideal) x0 x2 x3 x4 x5 x6 x7 x8 x9 (ix2 p o) = (Cert.Spec.lin (fun k => val_main_v22 (F := Ideal) x0 x2 x3 x4 x5 x6 x7 (ix2 p k)) (fun k o' => x8 (ix2 k o')) (fun o' => x9 (ix1 o')) o - Cert.Spec.mean (Cert.Spec.lin (fun k => val_main_v22 (F := Ideal) x0 x2 x3 x4 x5 x6 x7 (ix2 p k)) (fun k o' => x8 (ix2 k o')) (fun o' => x9 (ix1 o')))) := by
  rw [val_main_v32_apply, val_main_v31_apply, idx31, y_entry, mean_entry]
  rfl

/-- The centred row, as the normalisation reads it: the same difference, computed a second time by the program. -/
theorem dev_entry' (x0 : (⟨S100000x128, .f32⟩ : BufTy).Contents (Elt Ideal)) (x2 : (⟨S2x500000, .i32⟩ : BufTy).Contents (Elt Ideal))
    (x3 x4 : (⟨S500000x32, .f32⟩ : BufTy).Contents (Elt Ideal)) (x5 : (⟨S100000x128, .f32⟩ : BufTy).Contents (Elt Ideal))
    (x6 : (⟨S192x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (p : Fin 100000) (o : Fin 128) :
    val_main_v39 (F := Ideal) x0 x2 x3 x4 x5 x6 x7 x8 x9 (ix2 p o) = (Cert.Spec.lin (fun k => val_main_v22 (F := Ideal) x0 x2 x3 x4 x5 x6 x7 (ix2 p k)) (fun k o' => x8 (ix2 k o')) (fun o' => x9 (ix1 o')) o - Cert.Spec.mean (Cert.Spec.lin (fun k => val_main_v22 (F := Ideal) x0 x2 x3 x4 x5 x6 x7 (ix2 p k)) (fun k o' => x8 (ix2 k o')) (fun o' => x9 (ix1 o')))) := by
  rw [val_main_v39_apply, val_main_v38_apply, idx38, y_entry, mean_entry]
  rfl

/-- The squared deviation: entry (p, o) is the deviation times itself. -/
theorem sq_entry (x0 : (⟨S100000x128, .f32⟩ : BufTy).Contents (Elt Ideal)) (x2 : (⟨S2x500000, .i32⟩ : BufTy).Contents (Elt Ideal))
    (x3 x4 : (⟨S500000x32, .f32⟩ : BufTy).Contents (Elt Ideal)) (x5 : (⟨S100000x128, .f32⟩ : BufTy).Contents (Elt Ideal))
    (x6 : (⟨S192x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (p : Fin 100000) (o : Fin 128) :
    val_main_v33 (F := Ideal) x0 x2 x3 x4 x5 x6 x7 x8 x9 (ix2 p o) = (Cert.Spec.lin (fun k => val_main_v22 (F := Ideal) x0 x2 x3 x4 x5 x6 x7 (ix2 p k)) (fun k o' => x8 (ix2 k o')) (fun o' => x9 (ix1 o')) o - Cert.Spec.mean (Cert.Spec.lin (fun k => val_main_v22 (F := Ideal) x0 x2 x3 x4 x5 x6 x7 (ix2 p k)) (fun k o' => x8 (ix2 k o')) (fun o' => x9 (ix1 o')))) * (Cert.Spec.lin (fun k => val_main_v22 (F := Ideal) x0 x2 x3 x4 x5 x6 x7 (ix2 p k)) (fun k o' => x8 (ix2 k o')) (fun o' => x9 (ix1 o')) o - Cert.Spec.mean (Cert.Spec.lin (fun k => val_main_v22 (F := Ideal) x0 x2 x3 x4 x5 x6 x7 (ix2 p k)) (fun k o' => x8 (ix2 k o')) (fun o' => x9 (ix1 o')))) := by
  rw [val_main_v33_apply, dev_entry]
  rfl

/-- The variance column: row p holds the mean of the squared deviations of the linear layer's row p. -/
theorem var_entry (x0 : (⟨S100000x128, .f32⟩ : BufTy).Contents (Elt Ideal)) (x2 : (⟨S2x500000, .i32⟩ : BufTy).Contents (Elt Ideal))
    (x3 x4 : (⟨S500000x32, .f32⟩ : BufTy).Contents (Elt Ideal)) (x5 : (⟨S100000x128, .f32⟩ : BufTy).Contents (Elt Ideal))
    (x6 : (⟨S192x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (p : Fin 100000) :
    val_main_v37 (F := Ideal) x0 x2 x3 x4 x5 x6 x7 x8 x9 (ix2 p (0 : Fin 1))
      = Cert.Spec.mean (fun o' => (Cert.Spec.lin (fun k => val_main_v22 (F := Ideal) x0 x2 x3 x4 x5 x6 x7 (ix2 p k)) (fun k o' => x8 (ix2 k o')) (fun o' => x9 (ix1 o')) o' - Cert.Spec.mean (Cert.Spec.lin (fun k => val_main_v22 (F := Ideal) x0 x2 x3 x4 x5 x6 x7 (ix2 p k)) (fun k o' => x8 (ix2 k o')) (fun o' => x9 (ix1 o')))) * (Cert.Spec.lin (fun k => val_main_v22 (F := Ideal) x0 x2 x3 x4 x5 x6 x7 (ix2 p k)) (fun k o' => x8 (ix2 k o')) (fun o' => x9 (ix1 o')) o' - Cert.Spec.mean (Cert.Spec.lin (fun k => val_main_v22 (F := Ideal) x0 x2 x3 x4 x5 x6 x7 (ix2 p k)) (fun k o' => x8 (ix2 k o')) (fun o' => x9 (ix1 o'))))) := by
  rw [val_main_v37_apply, val_main_v35_apply, val_main_v36_apply, val_main_cst_4_apply, idx35, val_main_v34_apply,
    val_main_cst_3_apply]
  simp only [idx34, sq_entry, Ideal.hostDivf_def, Ideal.ofBits_def, Ideal.ofBits_zero_f32, zero_add]
  rfl

theorem node_entry (x0 : (⟨S100000x128, .f32⟩ : BufTy).Contents (Elt Ideal)) (x2 : (⟨S2x500000, .i32⟩ : BufTy).Contents (Elt Ideal))
    (x3 x4 : (⟨S500000x32, .f32⟩ : BufTy).Contents (Elt Ideal)) (x5 : (⟨S100000x128, .f32⟩ : BufTy).Contents (Elt Ideal))
    (x6 : (⟨S192x128, .f32⟩ : BufTy).Contents (Elt Ideal)) (x7 : (⟨S128, .f32⟩ : BufTy).Contents (Elt Ideal))
    (x8 : (⟨S128x128, .f32⟩ : BufTy).Contents (Elt Ideal)) (x9 x10 x11 : (⟨S128, .f32⟩ : BufTy).Contents (Elt Ideal))
    (p : Fin 100000) (o : Fin 128) :
    val_main_v51 (F := Ideal) x0 x2 x3 x4 x5 x6 x7 x8 x9 x10 x11 (ix2 p o)
      = Cert.Spec.nodeAt (fun k => val_main_v22 (F := Ideal) x0 x2 x3 x4 x5 x6 x7 (ix2 p k))
          (fun k o' => x8 (ix2 k o')) (fun o' => x9 (ix1 o')) (fun o' => x10 (ix1 o')) (fun o' => x11 (ix1 o')) o := by
  rw [val_main_v51_apply, val_main_v50_apply, val_main_v47_apply, val_main_v44_apply, val_main_v43_apply, idx43,
    val_main_v42_apply, val_main_v41_apply, val_main_v40_apply, val_main_cst_5_apply, val_main_v46_apply,
    val_main_v45_apply, idx45_46, val_main_v49_apply, val_main_v48_apply, idx48_49, val_main_call1_v0_apply,
    val_main_call1_cst_apply, dev_entry', var_entry]
  simp only [Ideal.maximumf_def, Ideal.addf_def, Ideal.mulf_def, Ideal.hostUnary_rsqrt_def, Ideal.ofBits_def]
  rfl

end Cert.ReferenceIdeal.RefValue
end
-- ==== Proof.Bridge.lean ====
/-
  The bridge: the idealized kernel's result is the idealized reference's, entry by entry.

  Both programs end in the same per-node computation (a linear layer, a layer normalisation over the 128 columns, a
  rectifier) of a node's aggregated row, so it is enough that the aggregated rows agree. The kernel sums the messages
  aimed at a node and adds the node's boundary row; the reference appends the boundary rows to the messages, node j's
  row carrying the index j, and sums once: the appended rows contribute exactly the node's own boundary row, and
  addition of extended reals is associative. A message is the rectified sum of a 192-term dot product plus a bias; the
  kernel cuts the 192 terms into the blocks of 128, 32 and 32 that the joined row is made of, and a finite sum may be
  cut anywhere. The two programs gather the source rows with the same indices and read the same target indices, so
  those are the same terms. No step needs the inputs to be finite.
-/
import proofs.«110367_j58823872086496_2_alg».proof.Proof.Gen.ReferenceIdeal.Read
import proofs.«110367_j58823872086496_2_alg».proof.Proof.Spec
import proofs.«110367_j58823872086496_2_alg».proof.Proof.HostK
import proofs.«110367_j58823872086496_2_alg».proof.Proof.KAgg
import proofs.«110367_j58823872086496_2_alg».proof.Proof.RefAgg
import proofs.«110367_j58823872086496_2_alg».proof.Proof.RefCat
import proofs.«110367_j58823872086496_2_alg».proof.Proof.MsgValue
import proofs.«110367_j58823872086496_2_alg».proof.Proof.NodeValue
import proofs.«110367_j58823872086496_2_alg».proof.Proof.RefValue
import Idealize.ShloMosaic.Lib.ValueIdx

set_option maxRecDepth 16384

noncomputable section

open scoped BigOperators

namespace Cert.Bridge

open Cert.KernelIdeal Cert.KernelIdeal.Gen Cert.KernelIdeal.HostK
open Idealize.ShloMosaic Idealize.ShloMosaic.TcCoe Idealize.ShloMosaic.ValueIdx Idealize.SL.Sem

/-- Both programs cut the same target row out of the edge list. -/
theorem dst_same (x2 : (⟨S2x500000, .i32⟩ : BufTy).Contents (Elt Ideal)) :
    dstRow x2 = Cert.ReferenceIdeal.Read.val_main_v17 (F := Ideal) x2 := rfl

/-- Both gather the same source rows, through the same wrapped indices. -/
theorem gather_same (x0 : (⟨S100000x128, .f32⟩ : BufTy).Contents (Elt Ideal))
    (x2 : (⟨S2x500000, .i32⟩ : BufTy).Contents (Elt Ideal)) :
    Host.gather gather_S100000x128_S500000x1_S500000x128_1_0_n_n_0_1_1128 x0 (srcCol x2)
      = Cert.ReferenceIdeal.Read.val_main_v8 (F := Ideal) x0 x2 := rfl

variable (m : (ℓ : Loc nD τ sig) → Buf (Elt Ideal) ℓ) (ρ : Dev nD → PrngReg)

/-- The launch arguments, as the arrays the reference's stages take. -/
abbrev A0 (c : Dev nD) : (⟨S100000x128, .f32⟩ : BufTy).Contents (Elt Ideal) := m ((c : Thread nD τ).loc main_arg0)
abbrev A2 (c : Dev nD) : (⟨S2x500000, .i32⟩ : BufTy).Contents (Elt Ideal) := m ((c : Thread nD τ).loc main_arg2)
abbrev A3 (c : Dev nD) : (⟨S500000x32, .f32⟩ : BufTy).Contents (Elt Ideal) := m ((c : Thread nD τ).loc main_arg3)
abbrev A4 (c : Dev nD) : (⟨S500000x32, .f32⟩ : BufTy).Contents (Elt Ideal) := m ((c : Thread nD τ).loc main_arg4)
abbrev A5 (c : Dev nD) : (⟨S100000x128, .f32⟩ : BufTy).Contents (Elt Ideal) := m ((c : Thread nD τ).loc main_arg5)
abbrev A6 (c : Dev nD) : (⟨S192x128, .f32⟩ : BufTy).Contents (Elt Ideal) := m ((c : Thread nD τ).loc main_arg6)
abbrev A7 (c : Dev nD) : (⟨S128, .f32⟩ : BufTy).Contents (Elt Ideal) := m ((c : Thread nD τ).loc main_arg7)
abbrev A8 (c : Dev nD) : (⟨S128x128, .f32⟩ : BufTy).Contents (Elt Ideal) := m ((c : Thread nD τ).loc main_arg8)
abbrev A9 (c : Dev nD) : (⟨S128, .f32⟩ : BufTy).Contents (Elt Ideal) := m ((c : Thread nD τ).loc main_arg9)
abbrev A10 (c : Dev nD) : (⟨S128, .f32⟩ : BufTy).Contents (Elt Ideal) := m ((c : Thread nD τ).loc main_arg10)
abbrev A11 (c : Dev nD) : (⟨S128, .f32⟩ : BufTy).Contents (Elt Ideal) := m ((c : Thread nD τ).loc main_arg11)

/-- AN EDGE'S MESSAGE is the same number in both programs: the kernel's three dot products against the weight's three
    row blocks are the reference's one dot product of the joined row against the whole weight. -/
theorem msg_same (c : Dev nD) (r : Fin 500000) (k : Fin 128) :
    ((dat0 (F := Ideal) (V1 m ρ) c).arrAt 7 cfg0.N : S500000x128.Idx → EReal) (ix2 r k)
      = Cert.ReferenceIdeal.Read.val_main_v14 (F := Ideal) (A0 m c) (A2 m c) (A3 m c) (A4 m c) (A6 m c) (A7 m c) (ix2 r k) := by
  rw [Cert.KernelIdeal.MsgValue.arr_entry, Cert.ReferenceIdeal.RefValue.msg_entry, Cert.ReferenceIdeal.RefCat.cat_sum]
  rw [HostK.feat, HostK.eattr, HostK.etime, HostK.wg, HostK.wa, HostK.wt, HostK.bmsg]
  unfold Cert.Spec.msgAt
  refine congrArg (max · Cert.Spec.zero) ?_
  refine congrArg₂ (· + ·) (congrArg₂ (· + ·) (congrArg₂ (· + ·) ?_ ?_) ?_) ?_
  · exact Finset.sum_congr rfl fun q _ => congrArg₂ (· * ·) rfl (Cert.KernelIdeal.KAgg.slice_wg _ q k)
  · exact Finset.sum_congr rfl fun q _ => congrArg₂ (· * ·) rfl (Cert.KernelIdeal.KAgg.slice_wa _ q k)
  · exact Finset.sum_congr rfl fun q _ => congrArg₂ (· * ·) rfl (Cert.KernelIdeal.KAgg.slice_wt _ q k)
  · exact Cert.KernelIdeal.KAgg.row_of_vec _ k

/-- A NODE'S AGGREGATED ROW is the same in both programs: the kernel sums the messages aimed at the node and then adds
    its boundary row; the reference sums the messages and the boundary rows in one pass, boundary row j into node j. -/
theorem row_same (c : Dev nD) (p : Fin 100000) (k : Fin 128) :
    Cert.Spec.addRow (fun k => (V3 m ρ c main_v18 : S100000x128.Idx → EReal) (ix2 p k))
        (fun k => (V3 m ρ c main_arg5 : S100000x128.Idx → EReal) (ix2 p k)) k
      = Cert.ReferenceIdeal.Read.val_main_v22 (F := Ideal) (A0 m c) (A2 m c) (A3 m c) (A4 m c) (A5 m c) (A6 m c) (A7 m c) (ix2 p k) := by
  unfold Cert.Spec.addRow
  dsimp only
  rw [HostK.seg, Cert.KernelIdeal.KAgg.segSum_entry, HostK.boundary, Cert.ReferenceIdeal.RefAgg.agg_entry]
  refine congrArg₂ (· + ·) (congrArg (Cert.Spec.zero + ·) (Finset.sum_congr rfl fun r _ => ?_)) rfl
  rw [msg_same m ρ c r k]
  rfl

/-- THE RESULT: what the second launch's write-backs leave is the reference's result, entry by entry — the same layer
    normalisation of the same linear layer of the same aggregated row. -/
theorem result_same (c : Dev nD) :
    ((dat1 (F := Ideal) (V3 m ρ) c).arrAt 6 cfg1.N : S100000x128.Idx → EReal)
      = Cert.ReferenceIdeal.Read.val_main_v51 (F := Ideal) (A0 m c) (A2 m c) (A3 m c) (A4 m c) (A5 m c) (A6 m c) (A7 m c)
          (A8 m c) (A9 m c) (A10 m c) (A11 m c) := by
  funext i
  obtain ⟨p, o, rfl⟩ : ∃ (p : Fin 100000) (o : Fin 128), i = ix2 p o := ⟨i 0, i 1, eq_ix2 i⟩
  rw [Cert.KernelIdeal.NodeValue.arr_entry, Cert.ReferenceIdeal.RefValue.node_entry]
  have ha : Cert.Spec.addRow (fun k => (V3 m ρ c main_v18 : S100000x128.Idx → EReal) (ix2 p k))
        (fun k => (V3 m ρ c main_arg5 : S100000x128.Idx → EReal) (ix2 p k))
      = fun k => Cert.ReferenceIdeal.Read.val_main_v22 (F := Ideal) (A0 m c) (A2 m c) (A3 m c) (A4 m c) (A5 m c) (A6 m c) (A7 m c) (ix2 p k) :=
    funext fun k => row_same m ρ c p k
  have hW : (fun k o' => (V3 m ρ c main_arg8 : S128x128.Idx → EReal) (ix2 k o')) = fun k o' => A8 m c (ix2 k o') := by
    rw [HostK.wlin]
  have hb : (fun o' => (V3 m ρ c main_v19 : S1x128.Idx → EReal) (ix2 0 o')) = fun o' => A9 m c (ix1 o') := by
    rw [HostK.blin]; exact funext fun o' => Cert.KernelIdeal.KAgg.row_of_vec _ o'
  have hg : (fun o' => (V3 m ρ c main_v20 : S1x128.Idx → EReal) (ix2 0 o')) = fun o' => A10 m c (ix1 o') := by
    rw [HostK.gain]; exact funext fun o' => Cert.KernelIdeal.KAgg.row_of_vec _ o'
  have hbe : (fun o' => (V3 m ρ c main_v21 : S1x128.Idx → EReal) (ix2 0 o')) = fun o' => A11 m c (ix1 o') := by
    rw [HostK.offset]; exact funext fun o' => Cert.KernelIdeal.KAgg.row_of_vec _ o'
  rw [ha, hW, hb, hg, hbe]

end Cert.Bridge
end
-- ==== Proof.lean ====
/-
  A graph message-passing layer against its plain reference, over the extended reals.

  The kernel gathers each edge's source-node row on the host, computes the edge messages in a first launch over blocks
  of 5000 edges (three matrix products into zero accumulators, a bias, a rectifier), sums the messages into their target
  nodes on the host, and in a second launch over blocks of 5000 nodes adds the boundary rows, applies a linear layer and
  a layer normalisation over the 128 columns, and rectifies. The reference joins the gathered rows with the edge
  attributes and the time embedding and takes one 192-wide product, appends the boundary rows to the messages as rows
  aimed at their own nodes, sums once, and applies the same linear layer and normalisation on whole arrays.

  The three frames: the two kernel programs' are the generated frame theorems; the reference has no launch, and its
  frame is its generated run with the result forgotten. The idealization rewrote nothing, so there is nothing to
  preserve. The equivalence: the kernel's run leaves its result at what the second launch's write-backs leave
  (Proof/KRun.lean), which entry by entry is the reference's result at the same arguments (Proof/Bridge.lean); the
  reference's run leaves its result at its operations' composed term (the generated run), read one operation at a time.
-/
import proofs.«110367_j58823872086496_2_alg».proof.Defs
import proofs.«110367_j58823872086496_2_alg».proof.Proof.Gen.Kernel
import proofs.«110367_j58823872086496_2_alg».proof.Proof.Gen.Kernel.Skeleton
import proofs.«110367_j58823872086496_2_alg».proof.Proof.Gen.Kernel.Launch
import proofs.«110367_j58823872086496_2_alg».proof.Proof.Gen.Kernel.Points
import proofs.«110367_j58823872086496_2_alg».proof.Proof.Gen.Kernel.Frame
import proofs.«110367_j58823872086496_2_alg».proof.Proof.Gen.KernelIdeal
import proofs.«110367_j58823872086496_2_alg».proof.Proof.Gen.KernelIdeal.Skeleton
import proofs.«110367_j58823872086496_2_alg».proof.Proof.Gen.KernelIdeal.Launch
import proofs.«110367_j58823872086496_2_alg».proof.Proof.Gen.KernelIdeal.Points
import proofs.«110367_j58823872086496_2_alg».proof.Proof.Gen.KernelIdeal.Frame
import proofs.«110367_j58823872086496_2_alg».proof.Proof.Gen.ReferenceIdeal
import proofs.«110367_j58823872086496_2_alg».proof.Proof.Gen.Pre_finite_inputs
import proofs.«110367_j58823872086496_2_alg».proof.Proof.Gen.ReferenceIdeal.Run
import proofs.«110367_j58823872086496_2_alg».proof.Proof.Gen.ReferenceIdeal.Read
import proofs.«110367_j58823872086496_2_alg».proof.Proof.KRun
import proofs.«110367_j58823872086496_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs run, and end with the same result: the kernel's is what its
    second launch's write-backs leave, the reference's its operations' composed term, and the two are one array. -/
theorem algebraic : Cert.algebraic_KernelIdeal_ReferenceIdeal := by
  intro m ρ m' ρ' _ hagree
  refine ⟨fun c => Cert.KernelIdeal.Gen.W4 m ρ c (Proc.devRef .tc Cert.KernelIdeal.main_v22),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v51_eq, h0, h2, h3, h4, h5, h6, h7, h8, h9, h10, h11]
  exact ((Cert.KernelIdeal.KRun.result_arr m ρ c).trans (Cert.Bridge.result_same m ρ c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
